-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v86)) (v2 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  main_v88

def fn_part4 {F : FTy → Type} [FloatOps F] (main_arg24 : FVec F S128x128 .f32) (main_arg25 : FVec F S128x128 .f32) (main_arg26 : FVec F S128 .f32) (main_arg27 : FVec F S128x128 .f32) (main_v63 : IVec S_ 1) (main_v67 : IVec S_ 1) : IVec S_ 1 :=
  let main_v68 : IVec S_ 1 := andi main_v63 main_v67
  let main_v69 : FVec F S128x128 .f32 := Host.absf main_arg24
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg25
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg26
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg27
  let main_cst_32 : FVec F S_ .f32 := constant S_ .f32 0x7F800000#32
  fn_part5 (F := F) main_v83 main_v84 main_cst_32

def fn_part3 {F : FTy → Type} [FloatOps F] (main_arg21 : FVec F S128x128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg21
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg22
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg23
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg24 main_arg25 main_arg26 main_arg27 main_v63 main_v67

def fn_part2 {F : FTy → Type} [FloatOps F] (main_arg17 : FVec F S128 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v33 : IVec S_ 1) : IVec S_ 1 :=
  let main_v34 : FVec F S128 .f32 := Host.absf main_arg17
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg18
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg19
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg20
  let main_cst_18 : FVec F S_ .f32 := constant S_ .f32 0x7F800000#32
  let main_v50 : FVec F S128 .f32 := broadcastInDim S128 ![] bcast_S_S128 main_cst_18
  fn_part3 (F := F) main_arg21 main_arg22 main_arg23 main_arg24 main_arg25 main_arg26 main_arg27 main_v48 main_v49 main_v50

def fn_part1 {F : FTy → Type} [FloatOps F] (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg14
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg15
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg16
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg17 main_arg18 main_arg19 main_arg20 main_arg21 main_arg22 main_arg23 main_arg24 main_arg25 main_arg26 main_arg27 main_v33

def fn {F : FTy → Type} [FloatOps F] (main_arg0 : FVec F S100000x128 .f32) (main_arg1 : FVec F S200000x128 .f32) (main_arg2 : FVec F S100000x128 .f32) (main_arg3 : IVec S400000 32) (main_arg4 : IVec S400000 32) (main_arg5 : IVec S400000 32) (main_arg6 : IVec S400000 32) (main_arg7 : IVec S400000 32) (main_arg8 : IVec S400000 32) (main_arg9 : IVec S400000 32) (main_arg10 : IVec S400000 32) (main_arg11 : IVec S400000 32) (main_arg12 : IVec S400000 32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg13
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg14 main_arg15 main_arg16 main_arg17 main_arg18 main_arg19 main_arg20 main_arg21 main_arg22 main_arg23 main_arg24 main_arg25 main_arg26 main_arg27 main_v13 main_v16
-- ==== Kernel.lean ====
abbrev S100000x128 : Shape := ⟨2, ![100000, 128]⟩
abbrev S200000x128 : Shape := ⟨2, ![200000, 128]⟩
abbrev S400000 : Shape := ⟨1, ![400000]⟩
abbrev S128x128 : Shape := ⟨2, ![128, 128]⟩
abbrev S128 : Shape := ⟨1, ![128]⟩
abbrev S_ : Shape := ⟨0, ![]⟩
abbrev S400000x1 : Shape := ⟨2, ![400000, 1]⟩
abbrev S400000x128 : Shape := ⟨2, ![400000, 128]⟩
abbrev S200000 : Shape := ⟨1, ![200000]⟩
abbrev S200000x1 : Shape := ⟨2, ![200000, 1]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩
abbrev S100000 : Shape := ⟨1, ![100000]⟩
abbrev S100000x1 : Shape := ⟨2, ![100000, 1]⟩

abbrev nBuf : Space → Nat
  | .hbm => 140
  | .vmem => 55
  | .smem => 0
  | _ => 0

abbrev hbmTy0_0 (i : Nat) : BufTy := match i % 128 with
  | 0 => ⟨S100000x128, .f32⟩
  | 1 => ⟨S200000x128, .f32⟩
  | 2 => ⟨S100000x128, .f32⟩
  | 3 => ⟨S400000, .i32⟩
  | 4 => ⟨S400000, .i32⟩
  | 5 => ⟨S400000, .i32⟩
  | 6 => ⟨S400000, .i32⟩
  | 7 => ⟨S400000, .i32⟩
  | 8 => ⟨S400000, .i32⟩
  | 9 => ⟨S400000, .i32⟩
  | 10 => ⟨S400000, .i32⟩
  | 11 => ⟨S400000, .i32⟩
  | 12 => ⟨S400000, .i32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S128x128, .f32⟩
  | 23 => ⟨S128, .f32⟩
  | 24 => ⟨S128x128, .f32⟩
  | 25 => ⟨S128x128, .f32⟩
  | 26 => ⟨S128, .f32⟩
  | 27 => ⟨S128x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .f32⟩
  | 38 => ⟨S200000x128, .f32⟩
  | 39 => ⟨S400000x1, .i32⟩
  | 40 => ⟨S200000x128, .f32⟩
  | 41 => ⟨S_, .f32⟩
  | 42 => ⟨S400000, .f32⟩
  | 43 => ⟨S_, .f32⟩
  | 44 => ⟨S200000, .f32⟩
  | 45 => ⟨S400000x1, .i32⟩
  | 46 => ⟨S200000, .f32⟩
  | 47 => ⟨S200000x1, .f32⟩
  | 48 => ⟨S1x128, .f32⟩
  | 49 => ⟨S200000x128, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x128, .f32⟩
  | 59 => ⟨S_, .f32⟩
  | 60 => ⟨S100000x128, .f32⟩
  | 61 => ⟨S400000x1, .i32⟩
  | 62 => ⟨S100000x128, .f32⟩
  | 63 => ⟨S_, .f32⟩
  | 64 => ⟨S400000, .f32⟩
  | 65 => ⟨S_, .f32⟩
  | 66 => ⟨S100000, .f32⟩
  | 67 => ⟨S400000x1, .i32⟩
  | 68 => ⟨S100000, .f32⟩
  | 69 => ⟨S100000x1, .f32⟩
  | 70 => ⟨S1x128, .f32⟩
  | 71 => ⟨S100000x128, .f32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x128, .f32⟩
  | 81 => ⟨S_, .f32⟩
  | 82 => ⟨S100000x128, .f32⟩
  | 83 => ⟨S400000x1, .i32⟩
  | 84 => ⟨S100000x128, .f32⟩
  | 85 => ⟨S_, .f32⟩
  | 86 => ⟨S400000, .f32⟩
  | 87 => ⟨S_, .f32⟩
  | 88 => ⟨S100000, .f32⟩
  | 89 => ⟨S400000x1, .i32⟩
  | 90 => ⟨S100000, .f32⟩
  | 91 => ⟨S100000x1, .f32⟩
  | 92 => ⟨S1x128, .f32⟩
  | 93 => ⟨S100000x128, .f32⟩
  | 94 => ⟨S_, .i32⟩
  | 95 => ⟨S400000, .i32⟩
  | 96 => ⟨S400000, .i1⟩
  | 97 => ⟨S_, .i32⟩
  | 98 => ⟨S400000, .i32⟩
  | 99 => ⟨S400000, .i32⟩
  | 100 => ⟨S400000, .i32⟩
  | 101 => ⟨S400000x1, .i32⟩
  | 102 => ⟨S400000x128, .f32⟩
  | 103 => ⟨S_, .f32⟩
  | 104 => ⟨S100000x128, .f32⟩
  | 105 => ⟨S400000x1, .i32⟩
  | 106 => ⟨S100000x128, .f32⟩
  | 107 => ⟨S_, .f32⟩
  | 108 => ⟨S400000, .f32⟩
  | 109 => ⟨S_, .f32⟩
  | 110 => ⟨S100000, .f32⟩
  | 111 => ⟨S400000x1, .i32⟩
  | 112 => ⟨S100000, .f32⟩
  | 113 => ⟨S100000x1, .f32⟩
  | 114 => ⟨S1x128, .f32⟩
  | 115 => ⟨S100000x128, .f32⟩
  | 116 => ⟨S100000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .f32⟩
  | 127 => ⟨S200000x128, .f32⟩
  | _ => ⟨S100000x128, .f32⟩

abbrev hbmTy0_1 (i : Nat) : BufTy := match i % 128 with
  | 0 => ⟨S400000x1, .i32⟩
  | 1 => ⟨S200000x128, .f32⟩
  | 2 => ⟨S_, .f32⟩
  | 3 => ⟨S400000, .f32⟩
  | 4 => ⟨S_, .f32⟩
  | 5 => ⟨S200000, .f32⟩
  | 6 => ⟨S400000x1, .i32⟩
  | 7 => ⟨S200000, .f32⟩
  | 8 => ⟨S200000x1, .f32⟩
  | 9 => ⟨S1x128, .f32⟩
  | 10 => ⟨S200000x128, .f32⟩
  | 11 => ⟨S200000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x1, .f32⟩
  | .local _ .vmem, ⟨49, _⟩ => ⟨S5000x1, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S5000x128, .f32⟩
  | .local _ .vmem, ⟨54, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_cst_7 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_8 : Ref sig .tc := ⟨.hbm, 72, rfl⟩
abbrev main_v34 : Ref sig .tc := ⟨.hbm, 73, rfl⟩
abbrev main_v35 : Ref sig .tc := ⟨.hbm, 74, rfl⟩
abbrev main_c_9 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_10 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_11 : Ref sig .tc := ⟨.hbm, 85, rfl⟩
abbrev main_v44 : Ref sig .tc := ⟨.hbm, 86, rfl⟩
abbrev main_cst_12 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_13 : Ref sig .tc := ⟨.hbm, 94, rfl⟩
abbrev main_v51 : Ref sig .tc := ⟨.hbm, 95, rfl⟩
abbrev main_v52 : Ref sig .tc := ⟨.hbm, 96, rfl⟩
abbrev main_c_14 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_15 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_16 : Ref sig .tc := ⟨.hbm, 107, rfl⟩
abbrev main_v61 : Ref sig .tc := ⟨.hbm, 108, rfl⟩
abbrev main_cst_17 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_18 : Ref sig .tc := ⟨.hbm, 117, rfl⟩
abbrev main_v69 : Ref sig .tc := ⟨.hbm, 118, rfl⟩
abbrev main_v70 : Ref sig .tc := ⟨.hbm, 119, rfl⟩
abbrev main_c_19 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_20 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_21 : Ref sig .tc := ⟨.hbm, 130, rfl⟩
abbrev main_v79 : Ref sig .tc := ⟨.hbm, 131, rfl⟩
abbrev main_cst_22 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  scatter_S200000_S400000x1_S400000_n_0_0_1_wf : ScatterDims.WF S200000 S400000x1 S400000 [] [0] [0] 1
  dot_S5000x128_S128x128_S5000x128_1_1_0_0_n_n_wf : DotDims.WF S5000x128 S128x128 S5000x128 [1] [1] [0] [0] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S200000x128_S400000x1_S400000x128_1_0_n_n_0_1_1128_wf : GatherDims.WF S200000x128 S400000x1 S400000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S200000x128.size a
  hwx0_1 : ∀ i : grid0.Coords, EltTy.bits .f32 = 32 ∨ (Rect.block (s := S200000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S200000x128.size a
  hwx0_6 : ∀ i : grid0.Coords, EltTy.bits .f32 = 32 ∨ (Rect.block (s := S200000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S200000x1.size a
  hwx4_2 : ∀ i : grid4.Coords, EltTy.bits .f32 = 32 ∨ (Rect.block (s := S200000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S200000x128.size a
  hwx4_6 : ∀ i : grid4.Coords, EltTy.bits .f32 = 32 ∨ (Rect.block (s := S200000x128) S5000x128.size (cc4_transform_6 i) (hinb4_6 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg18) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg21) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg2) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg24) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg25) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg27) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S400000 : Shape := ⟨1, ![400000]⟩
abbrev S128x128 : Shape := ⟨2, ![128, 128]⟩
abbrev S128 : Shape := ⟨1, ![128]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩

abbrev nBuf : Space → Nat
  | .hbm => 245
  | .vmem => 0
  | .smem => 0
  | _ => 0

abbrev hbmTy0_0 (i : Nat) : BufTy := match i % 128 with
  | 0 => ⟨S100000x128, .f32⟩
  | 1 => ⟨S200000x128, .f32⟩
  | 2 => ⟨S100000x128, .f32⟩
  | 3 => ⟨S400000, .i32⟩
  | 4 => ⟨S400000, .i32⟩
  | 5 => ⟨S400000, .i32⟩
  | 6 => ⟨S400000, .i32⟩
  | 7 => ⟨S400000, .i32⟩
  | 8 => ⟨S400000, .i32⟩
  | 9 => ⟨S400000, .i32⟩
  | 10 => ⟨S400000, .i32⟩
  | 11 => ⟨S400000, .i32⟩
  | 12 => ⟨S400000, .i32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S128x128, .f32⟩
  | 23 => ⟨S128, .f32⟩
  | 24 => ⟨S128x128, .f32⟩
  | 25 => ⟨S128x128, .f32⟩
  | 26 => ⟨S128, .f32⟩
  | 27 => ⟨S128x128, .f32⟩
  | 28 => ⟨S128x128, .f32⟩
  | 29 => ⟨S200000x128, .f32⟩
  | 30 => ⟨S1x128, .f32⟩
  | 31 => ⟨S200000x128, .f32⟩
  | 32 => ⟨S200000x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S_, .f32⟩
  | 43 => ⟨S200000x128, .f32⟩
  | 44 => ⟨S400000x1, .i32⟩
  | 45 => ⟨S200000x128, .f32⟩
  | 46 => ⟨S_, .f32⟩
  | 47 => ⟨S400000, .f32⟩
  | 48 => ⟨S_, .f32⟩
  | 49 => ⟨S200000, .f32⟩
  | 50 => ⟨S400000x1, .i32⟩
  | 51 => ⟨S200000, .f32⟩
  | 52 => ⟨S_, .f32⟩
  | 53 => ⟨S200000, .f32⟩
  | 54 => ⟨S200000, .f32⟩
  | 55 => ⟨S200000x1, .f32⟩
  | 56 => ⟨S200000x128, .f32⟩
  | 57 => ⟨S200000x128, .f32⟩
  | 58 => ⟨S128x128, .f32⟩
  | 59 => ⟨S200000x128, .f32⟩
  | 60 => ⟨S200000x128, .f32⟩
  | 61 => ⟨S200000x128, .f32⟩
  | 62 => ⟨S_, .f32⟩
  | 63 => ⟨S200000, .f32⟩
  | 64 => ⟨S200000x1, .f32⟩
  | 65 => ⟨S200000x1, .f32⟩
  | 66 => ⟨S_, .f32⟩
  | 67 => ⟨S200000x1, .f32⟩
  | 68 => ⟨S200000x1, .f32⟩
  | 69 => ⟨S200000x128, .f32⟩
  | 70 => ⟨S200000x128, .f32⟩
  | 71 => ⟨S128x128, .f32⟩
  | 72 => ⟨S100000x128, .f32⟩
  | 73 => ⟨S1x128, .f32⟩
  | 74 => ⟨S100000x128, .f32⟩
  | 75 => ⟨S100000x128, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x128, .f32⟩
  | 85 => ⟨S_, .f32⟩
  | 86 => ⟨S100000x128, .f32⟩
  | 87 => ⟨S400000x1, .i32⟩
  | 88 => ⟨S100000x128, .f32⟩
  | 89 => ⟨S_, .f32⟩
  | 90 => ⟨S400000, .f32⟩
  | 91 => ⟨S_, .f32⟩
  | 92 => ⟨S100000, .f32⟩
  | 93 => ⟨S400000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S128x128, .f32⟩
  | 102 => ⟨S100000x128, .f32⟩
  | 103 => ⟨S100000x128, .f32⟩
  | 104 => ⟨S100000x128, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000x128, .f32⟩
  | _ => ⟨S100000x128, .f32⟩

abbrev hbmTy0_1 (i : Nat) : BufTy := match i % 128 with
  | 0 => ⟨S_, .f32⟩
  | 1 => ⟨S100000x128, .f32⟩
  | 2 => ⟨S400000x1, .i32⟩
  | 3 => ⟨S100000x128, .f32⟩
  | 4 => ⟨S_, .f32⟩
  | 5 => ⟨S400000, .f32⟩
  | 6 => ⟨S_, .f32⟩
  | 7 => ⟨S100000, .f32⟩
  | 8 => ⟨S400000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S128x128, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S128x128, .f32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S_, .f32⟩
  | 44 => ⟨S100000x128, .f32⟩
  | 45 => ⟨S400000x1, .i32⟩
  | 46 => ⟨S100000x128, .f32⟩
  | 47 => ⟨S_, .f32⟩
  | 48 => ⟨S400000, .f32⟩
  | 49 => ⟨S_, .f32⟩
  | 50 => ⟨S100000, .f32⟩
  | 51 => ⟨S400000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S100000x1, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S100000x128, .f32⟩
  | 73 => ⟨S128x128, .f32⟩
  | 74 => ⟨S200000x128, .f32⟩
  | 75 => ⟨S1x128, .f32⟩
  | 76 => ⟨S200000x128, .f32⟩
  | 77 => ⟨S200000x128, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .f32⟩
  | 87 => ⟨S_, .f32⟩
  | 88 => ⟨S200000x128, .f32⟩
  | 89 => ⟨S400000x1, .i32⟩
  | 90 => ⟨S200000x128, .f32⟩
  | 91 => ⟨S_, .f32⟩
  | 92 => ⟨S400000, .f32⟩
  | 93 => ⟨S_, .f32⟩
  | 94 => ⟨S200000, .f32⟩
  | 95 => ⟨S400000x1, .i32⟩
  | 96 => ⟨S200000, .f32⟩
  | 97 => ⟨S_, .f32⟩
  | 98 => ⟨S200000, .f32⟩
  | 99 => ⟨S200000, .f32⟩
  | 100 => ⟨S200000x1, .f32⟩
  | 101 => ⟨S200000x128, .f32⟩
  | 102 => ⟨S200000x128, .f32⟩
  | 103 => ⟨S128x128, .f32⟩
  | 104 => ⟨S200000x128, .f32⟩
  | 105 => ⟨S200000x128, .f32⟩
  | 106 => ⟨S200000x128, .f32⟩
  | 107 => ⟨S_, .f32⟩
  | 108 => ⟨S200000, .f32⟩
  | 109 => ⟨S200000x1, .f32⟩
  | 110 => ⟨S200000x1, .f32⟩
  | 111 => ⟨S_, .f32⟩
  | 112 => ⟨S200000x1, .f32⟩
  | 113 => ⟨S200000x1, .f32⟩
  | 114 => ⟨S200000x128, .f32⟩
  | 115 => ⟨S200000x128, .f32⟩
  | 116 => ⟨S200000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call0_v0 : Ref sig .tc := ⟨.hbm, 61, rfl⟩
abbrev main_call0_cst : Ref sig .tc := ⟨.hbm, 62, rfl⟩
abbrev main_call0_v1 : Ref sig .tc := ⟨.hbm, 63, rfl⟩
abbrev main_call0_v2 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_c_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_call1_v0 : Ref sig .tc := ⟨.hbm, 104, rfl⟩
abbrev main_call1_cst : Ref sig .tc := ⟨.hbm, 105, rfl⟩
abbrev main_call1_v1 : Ref sig .tc := ⟨.hbm, 106, rfl⟩
abbrev main_call1_v2 : Ref sig .tc := ⟨.hbm, 107, rfl⟩
abbrev main_v59 : Ref sig .tc := ⟨.hbm, 108, rfl⟩
abbrev main_cst_11 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_12 : Ref sig .tc := ⟨.hbm, 119, rfl⟩
abbrev main_v69 : Ref sig .tc := ⟨.hbm, 120, rfl⟩
abbrev main_v70 : Ref sig .tc := ⟨.hbm, 121, rfl⟩
abbrev main_c_13 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_14 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_15 : Ref sig .tc := ⟨.hbm, 132, rfl⟩
abbrev main_v79 : Ref sig .tc := ⟨.hbm, 133, rfl⟩
abbrev main_cst_16 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_17 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_call2_v0 : Ref sig .tc := ⟨.hbm, 147, rfl⟩
abbrev main_call2_cst : Ref sig .tc := ⟨.hbm, 148, rfl⟩
abbrev main_call2_v1 : Ref sig .tc := ⟨.hbm, 149, rfl⟩
abbrev main_call2_v2 : Ref sig .tc := ⟨.hbm, 150, rfl⟩
abbrev main_v91 : Ref sig .tc := ⟨.hbm, 151, rfl⟩
abbrev main_cst_18 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_c_19 : Ref sig .tc := ⟨.hbm, 162, rfl⟩
abbrev main_v101 : Ref sig .tc := ⟨.hbm, 163, rfl⟩
abbrev main_v102 : Ref sig .tc := ⟨.hbm, 164, rfl⟩
abbrev main_c_20 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_21 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_22 : Ref sig .tc := ⟨.hbm, 175, rfl⟩
abbrev main_v111 : Ref sig .tc := ⟨.hbm, 176, rfl⟩
abbrev main_cst_23 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_24 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call3_v0 : Ref sig .tc := ⟨.hbm, 190, rfl⟩
abbrev main_call3_cst : Ref sig .tc := ⟨.hbm, 191, rfl⟩
abbrev main_call3_v1 : Ref sig .tc := ⟨.hbm, 192, rfl⟩
abbrev main_call3_v2 : Ref sig .tc := ⟨.hbm, 193, rfl⟩
abbrev main_v123 : Ref sig .tc := ⟨.hbm, 194, rfl⟩
abbrev main_cst_25 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_c_26 : Ref sig .tc := ⟨.hbm, 206, rfl⟩
abbrev main_v134 : Ref sig .tc := ⟨.hbm, 207, rfl⟩
abbrev main_v135 : Ref sig .tc := ⟨.hbm, 208, rfl⟩
abbrev main_c_27 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_28 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_29 : Ref sig .tc := ⟨.hbm, 219, rfl⟩
abbrev main_v144 : Ref sig .tc := ⟨.hbm, 220, rfl⟩
abbrev main_cst_30 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_31 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_call4_v0 : Ref sig .tc := ⟨.hbm, 234, rfl⟩
abbrev main_call4_cst : Ref sig .tc := ⟨.hbm, 235, rfl⟩
abbrev main_call4_v1 : Ref sig .tc := ⟨.hbm, 236, rfl⟩
abbrev main_call4_v2 : Ref sig .tc := ⟨.hbm, 237, rfl⟩
abbrev main_v156 : Ref sig .tc := ⟨.hbm, 238, rfl⟩
abbrev main_cst_32 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S200000x128_S200000_d1 : S200000x128.ReducesTo [1] S200000
  h_S_ : 0 < S_.numel
  bcast_S_S200000x1 : S_.BroadcastsInDim S200000x1 (![] : Fin 0 → Fin S200000x1.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  dot_S200000x128_S128x128_S200000x128_1_0_0_1_n_n_wf : DotDims.WF S200000x128 S128x128 S200000x128 [1] [0] [0] [1] [] []
  gather_S100000x128_S400000x1_S400000x128_1_0_n_n_0_1_1128_wf : GatherDims.WF S100000x128 S400000x1 S400000x128 [1] [0] [] [0] [] 1 ![1, 128]
  scatter_S200000x128_S400000x1_S400000x128_1_0_0_1_wf : ScatterDims.WF S200000x128 S400000x1 S400000x128 [1] [0] [0] 1
  scatter_S200000_S400000x1_S400000_n_0_0_1_wf : ScatterDims.WF S200000 S400000x1 S400000 [] [0] [0] 1
  dot_S100000x128_S128x128_S100000x128_1_0_0_1_n_n_wf : DotDims.WF S100000x128 S128x128 S100000x128 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S200000x128_S400000x1_S400000x128_1_0_n_n_0_1_1128_wf : GatherDims.WF S200000x128 S400000x1 S400000x128 [1] [0] [] [0] [] 1 ![1, 128]

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf

class Facts : Prop extends Facts₀ where

variable [Facts]
-- ==== Proof.KRun.lean ====
/-
  The idealized kernel's run, with every unscoped buffer named: from any memory with zero counters every weakly fair
  execution of the program terminates, and in every final state each unscoped buffer of a core holds what the fold
  through the program's stretches of host operations and its five kernel regions leaves there.
-/
import proofs.«180688_j74045236183058_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's eleven segments, read at every unscoped buffer: the final memory is the last
    boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

end Cert.KernelIdeal.KRun

end
-- ==== Proof.SageSpec.lean ====
/-
  One mean-aggregating graph layer followed by a row normalisation, on the extended reals, entry by entry.

  For node features X [a, 128], messages summed per node AGG [a, 128], the per-node message count CNT (a column
  [a, 1]), two weight matrices WL, WR [128, 128] read along their rows, and a bias row B [1, 128]:

    mean(r, k) = AGG(r, k) / max(CNT(r), 1)
    pre(r, q)  = ((sum_k X(r, k) * WL(q, k)) + B(q)) + sum_k mean(r, k) * WR(q, k)
    layer(r, q) = pre(r, q) / max(sqrt(sum_c pre(r, c) * pre(r, c)), eps)

  with 1 and eps the two float words the programs carry (never evaluated: both programs carry the same words).
  Entry (r, q) looks at row r of X, AGG and CNT only, so a block of rows of the layer is the layer of the block.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- An [a, b] array of extended reals. -/
abbrev M2 (a b : ℕ) : Type := (⟨2, ![a, b]⟩ : Shape).Idx → EReal

/-- The float word of 1.0 and the float word of the normalisation's floor, as extended reals. -/
def one : EReal := Ideal.ofBits .f32 0x3F800000#32
def eps : EReal := Ideal.ofBits .f32 0x2B8CBCCC#32

/-- A vector laid out as a column, and as a row. -/
def col {a : ℕ} (v : (⟨1, ![a]⟩ : Shape).Idx → EReal) : M2 a 1 := fun j => v (ix1 (j 0))
def row {n : ℕ} (v : (⟨1, ![n]⟩ : Shape).Idx → EReal) : M2 1 n := fun j => v (ix1 (j 1))

/-- The mean message of node r at feature k: the summed messages over the count clamped below by 1. -/
def mean {a : ℕ} (AGG : M2 a 128) (CNT : M2 a 1) (r : Fin a) (k : Fin 128) : EReal :=
  Ideal.div (AGG (ix2 r k)) (max (CNT (ix2 r (0 : Fin 1))) one)

/-- The layer before normalisation at (r, q). -/
def pre {a : ℕ} (X AGG : M2 a 128) (CNT : M2 a 1) (WL : M2 128 128) (B : M2 1 128) (WR : M2 128 128)
    (r : Fin a) (q : Fin 128) : EReal :=
  ((∑ k : Fin 128, X (ix2 r k) * WL (ix2 q k)) + B (ix2 (0 : Fin 1) q)) + ∑ k : Fin 128, mean AGG CNT r k * WR (ix2 q k)

/-- The layer: each row of `pre` divided by its Euclidean length, the length clamped below by eps. -/
def layer {a : ℕ} (X AGG : M2 a 128) (CNT : M2 a 1) (WL : M2 128 128) (B : M2 1 128) (WR : M2 128 128) : M2 a 128 :=
  fun j => Ideal.div (pre X AGG CNT WL B WR (j 0) (j 1))
    (max (Ideal.sqrt (∑ c : Fin 128, pre X AGG CNT WL B WR (j 0) c * pre X AGG CNT WL B WR (j 0) c)) eps)

theorem layer_ix2 {a : ℕ} (X AGG : M2 a 128) (CNT : M2 a 1) (WL : M2 128 128) (B : M2 1 128) (WR : M2 128 128)
    (r : Fin a) (q : Fin 128) :
    layer X AGG CNT WL B WR (ix2 r q) = Ideal.div (pre X AGG CNT WL B WR r q)
      (max (Ideal.sqrt (∑ c : Fin 128, pre X AGG CNT WL B WR r c * pre X AGG CNT WL B WR r c)) eps) := rfl

/-- `pre` at row r depends on row r of the node arrays only: if row r' of (X', AGG', CNT') is row r of (X, AGG, CNT),
    the two agree. -/
theorem pre_congr_row {a a' : ℕ} (X AGG : M2 a 128) (CNT : M2 a 1) (X' AGG' : M2 a' 128) (CNT' : M2 a' 1)
    (WL : M2 128 128) (B : M2 1 128) (WR : M2 128 128) (r : Fin a) (r' : Fin a')
    (hX : ∀ k, X' (ix2 r' k) = X (ix2 r k)) (hA : ∀ k, AGG' (ix2 r' k) = AGG (ix2 r k))
    (hC : CNT' (ix2 r' (0 : Fin 1)) = CNT (ix2 r (0 : Fin 1))) (q : Fin 128) :
    pre X' AGG' CNT' WL B WR r' q = pre X AGG CNT WL B WR r q := by
  unfold pre mean
  simp only [hX, hA, hC]

/-- A block of rows of the layer is the layer of the block. -/
theorem layer_congr_row {a a' : ℕ} (X AGG : M2 a 128) (CNT : M2 a 1) (X' AGG' : M2 a' 128) (CNT' : M2 a' 1)
    (WL : M2 128 128) (B : M2 1 128) (WR : M2 128 128) (r : Fin a) (r' : Fin a')
    (hX : ∀ k, X' (ix2 r' k) = X (ix2 r k)) (hA : ∀ k, AGG' (ix2 r' k) = AGG (ix2 r k))
    (hC : CNT' (ix2 r' (0 : Fin 1)) = CNT (ix2 r (0 : Fin 1))) (q : Fin 128) :
    layer X' AGG' CNT' WL B WR (ix2 r' q) = layer X AGG CNT WL B WR (ix2 r q) := by
  rw [layer_ix2, layer_ix2]
  simp only [pre_congr_row X AGG CNT X' AGG' CNT' WL B WR r r' hX hA hC]

/-- The same, for an entry of one array against an entry of another: equal columns, and the three node arrays of the
    first at its row are those of the second at its row; the weights and the bias are the same arrays. -/
theorem layer_congr {a a' : ℕ} (X AGG : M2 a 128) (CNT : M2 a 1) (X' AGG' : M2 a' 128) (CNT' : M2 a' 1)
    (WL : M2 128 128) (B : M2 1 128) (WR : M2 128 128) (WL' : M2 128 128) (B' : M2 1 128) (WR' : M2 128 128)
    (i : (⟨2, ![a, 128]⟩ : Shape).Idx) (y : (⟨2, ![a', 128]⟩ : Shape).Idx)
    (hWL : WL' = WL) (hB : B' = B) (hWR : WR' = WR) (hq : y 1 = i 1)
    (hX : ∀ k, X' (ix2 (y 0) k) = X (ix2 (i 0) k)) (hA : ∀ k, AGG' (ix2 (y 0) k) = AGG (ix2 (i 0) k))
    (hC : CNT' (ix2 (y 0) (0 : Fin 1)) = CNT (ix2 (i 0) (0 : Fin 1))) :
    layer X' AGG' CNT' WL' B' WR' y = layer X AGG CNT WL B WR i := by
  subst hWL hB hWR
  show Ideal.div (pre X' AGG' CNT' WL' B' WR' (y 0) (y 1))
      (max (Ideal.sqrt (∑ c : Fin 128, pre X' AGG' CNT' WL' B' WR' (y 0) c * pre X' AGG' CNT' WL' B' WR' (y 0) c)) eps)
    = Ideal.div (pre X AGG CNT WL' B' WR' (i 0) (i 1))
      (max (Ideal.sqrt (∑ c : Fin 128, pre X AGG CNT WL' B' WR' (i 0) c * pre X AGG CNT WL' B' WR' (i 0) c)) eps)
  rw [hq, pre_congr_row X AGG CNT X' AGG' CNT' WL' B' WR' (i 0) (y 0) hX hA hC (i 1)]
  refine congrArg (Ideal.div _) (congrArg₂ max (congrArg Ideal.sqrt (Finset.sum_congr rfl fun c _ => ?_)) rfl)
  rw [pre_congr_row X AGG CNT X' AGG' CNT' WL' B' WR' (i 0) (y 0) hX hA hC c]

end Cert.Sage

end
-- ==== Proof.KLayout.lean ====
/-
  Two layouts of a vector: spread along axis 0 into a column [a, 1], it reads its entry of the row; re-laid as the
  row [1, n], it reads its entry of the column.
-/
import Idealize.ShloMosaic.Lib.Pipeline.Value
import Idealize.ShloMosaic.Lib.ValueIdx
import Idealize.ShloMosaic.Lib.ValueLayout
import proofs.«180688_j74045236183058_1_alg».proof.Proof.SageSpec

noncomputable section

namespace Cert.KLayout

open Idealize.ShloMosaic Idealize.ShloMosaic.ValueIdx Cert.Sage

/-- A vector spread along axis 0 into a column is `col` of it. -/
theorem bcast_col {a : ℕ} (x : (⟨1, ![a]⟩ : Shape).Idx → EReal)
    (hb : (⟨1, ![a]⟩ : Shape).BroadcastsInDim ⟨2, ![a, 1]⟩ ![0]) :
    broadcastInDim ⟨2, ![a, 1]⟩ ![0] hb x = col x := by
  funext j
  obtain ⟨r, u, rfl⟩ : ∃ (r : Fin a) (u : Fin 1), j = ix2 r u := ⟨j 0, j 1, eq_ix2 j⟩
  refine broadcastInDim_apply ![0] hb x (ix2 r u) (ix1 r) fun ax => ?_
  match ax with
  | ⟨0, _⟩ =>
    show r.val = if a = 1 then 0 else r.val
    split
    · have := r.isLt; omega
    · rfl

/-- A vector re-laid as a row is `row` of it. -/
theorem cast_row {n : ℕ} (x : (⟨1, ![n]⟩ : Shape).Idx → EReal) (hc : (⟨1, ![n]⟩ : Shape).ShapeCasts ⟨2, ![1, n]⟩) :
    shapeCast ⟨2, ![1, n]⟩ x hc = row x := by
  funext j
  obtain ⟨u, q, rfl⟩ : ∃ (u : Fin 1) (q : Fin n), j = ix2 u q := ⟨j 0, j 1, eq_ix2 j⟩
  rw [shapeCast_a_1a_apply]
  rfl

end Cert.KLayout

end
-- ==== Proof.KKeep.lean ====
/-
  The idealized kernel's boundaries: what each stretch of host operations computes, writes and keeps, what each region
  keeps, and the arguments at every boundary.

  The program is five stretches of host operations, each followed by a kernel region, and a last host operation. A
  stretch computes, from the arguments alone, the messages summed per destination node (rows of the source features
  gathered by the edges' sources, scatter-added by their destinations), the per-node message count (ones scatter-added
  by the destinations, laid as a column) and the bias laid as a row; the region that follows writes the layer of
  SageSpec.lean of those and of three arguments into a fresh array. No stretch and no region writes an argument or
  an earlier region's result, so each boundary's contents at those buffers walk back to the launch memory or to the
  region that wrote them. The results are the third layer, and the sums of the first and fifth and of the second and
  fourth.
-/
import proofs.«180688_j74045236183058_1_alg».proof.Proof.Gen.KernelIdeal.Frame
import proofs.«180688_j74045236183058_1_alg».proof.Proof.KLayout
import Idealize.ShloMosaic.Lib.StableHlo.Run

set_option maxRecDepth 16384

noncomputable section

namespace Cert.KernelIdeal.KKeep

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-! ## What each stretch computes from the arguments -/

/-- Layer 0: the messages summed per destination node, and the per-node message count. -/
def agg0 : FVec Ideal S200000x128 .f32 :=
  (Host.scatterAdd scatter_S200000x128_S400000x1_S400000x128_1_0_0_1 (broadcastInDim S200000x128 ![] bcast_S_S200000x128 (constant S_ .f32 0x00000000#32)) (broadcastInDim S400000x1 ![0] bcast_S400000_S400000x1_0 (m ((c.tc : Thread nD τ).loc main_arg4))) (Host.gather gather_S100000x128_S400000x1_S400000x128_1_0_n_n_0_1_1128 (m ((c.tc : Thread nD τ).loc main_arg0)) (broadcastInDim S400000x1 ![0] bcast_S400000_S400000x1_0 (select (cmpi .slt (m ((c.tc : Thread nD τ).loc main_arg3)) (broadcastInDim S400000 ![] bcast_S_S400000 (constantI S_ 32 0#32))) (addi (m ((c.tc : Thread nD τ).loc main_arg3)) (broadcastInDim S400000 ![] bcast_S_S400000 (constantI S_ 32 100000#32))) (m ((c.tc : Thread nD τ).loc main_arg3))))))
def cnt0 : FVec Ideal S200000 .f32 :=
  (Host.scatterAdd scatter_S200000_S400000x1_S400000_n_0_0_1 (broadcastInDim S200000 ![] bcast_S_S200000 (constant S_ .f32 0x00000000#32)) (broadcastInDim S400000x1 ![0] bcast_S400000_S400000x1_0 (m ((c.tc : Thread nD τ).loc main_arg4))) (broadcastInDim S400000 ![] bcast_S_S400000 (constant S_ .f32 0x3F800000#32)))
/-- Layer 0 of the arguments. -/
def L0 : Cert.Sage.M2 200000 128 :=
  Cert.Sage.layer (a := 200000) (m ((c.tc : Thread nD τ).loc main_arg1)) (agg0 m c) (Cert.Sage.col (cnt0 m c)) (m ((c.tc : Thread nD τ).loc main_arg13)) (Cert.Sage.row (m ((c.tc : Thread nD τ).loc main_arg14))) (m ((c.tc : Thread nD τ).loc main_arg15))

/-- Layer 1: the messages summed per destination node, and the per-node message count. -/
def agg1 : FVec Ideal S100000x128 .f32 :=
  (Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg6))) (Host.gather gather_S100000x128_S400000x1_S400000x128_1_0_n_n_0_1_1128 (m ((c.tc : Thread nD τ).loc main_arg0)) (broadcastInDim S400000x1 ![0] bcast_S400000_S400000x1_0 (select (cmpi .slt (m ((c.tc : Thread nD τ).loc main_arg5)) (broadcastInDim S400000 ![] bcast_S_S400000 (constantI S_ 32 0#32))) (addi (m ((c.tc : Thread nD τ).loc main_arg5)) (broadcastInDim S400000 ![] bcast_S_S400000 (constantI S_ 32 100000#32))) (m ((c.tc : Thread nD τ).loc main_arg5))))))
def cnt1 : FVec Ideal S100000 .f32 :=
  (Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg6))) (broadcastInDim S400000 ![] bcast_S_S400000 (constant S_ .f32 0x3F800000#32)))
/-- Layer 1 of the arguments. -/
def L1 : Cert.Sage.M2 100000 128 :=
  Cert.Sage.layer (a := 100000) (m ((c.tc : Thread nD τ).loc main_arg2)) (agg1 m c) (Cert.Sage.col (cnt1 m c)) (m ((c.tc : Thread nD τ).loc main_arg16)) (Cert.Sage.row (m ((c.tc : Thread nD τ).loc main_arg17))) (m ((c.tc : Thread nD τ).loc main_arg18))

/-- Layer 2: the messages summed per destination node, and the per-node message count. -/
def agg2 : FVec Ideal S100000x128 .f32 :=
  (Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg8))) (Host.gather gather_S200000x128_S400000x1_S400000x128_1_0_n_n_0_1_1128 (m ((c.tc : Thread nD τ).loc main_arg1)) (broadcastInDim S400000x1 ![0] bcast_S400000_S400000x1_0 (select (cmpi .slt (m ((c.tc : Thread nD τ).loc main_arg7)) (broadcastInDim S400000 ![] bcast_S_S400000 (constantI S_ 32 0#32))) (addi (m ((c.tc : Thread nD τ).loc main_arg7)) (broadcastInDim S400000 ![] bcast_S_S400000 (constantI S_ 32 200000#32))) (m ((c.tc : Thread nD τ).loc main_arg7))))))
def cnt2 : FVec Ideal S100000 .f32 :=
  (Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg8))) (broadcastInDim S400000 ![] bcast_S_S400000 (constant S_ .f32 0x3F800000#32)))
/-- Layer 2 of the arguments. -/
def L2 : Cert.Sage.M2 100000 128 :=
  Cert.Sage.layer (a := 100000) (m ((c.tc : Thread nD τ).loc main_arg0)) (agg2 m c) (Cert.Sage.col (cnt2 m c)) (m ((c.tc : Thread nD τ).loc main_arg19)) (Cert.Sage.row (m ((c.tc : Thread nD τ).loc main_arg20))) (m ((c.tc : Thread nD τ).loc main_arg21))

/-- Layer 3: the messages summed per destination node, and the per-node message count. -/
def agg3 : FVec Ideal S100000x128 .f32 :=
  (Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg10))) (Host.gather gather_S200000x128_S400000x1_S400000x128_1_0_n_n_0_1_1128 (m ((c.tc : Thread nD τ).loc main_arg1)) (broadcastInDim S400000x1 ![0] bcast_S400000_S400000x1_0 (select (cmpi .slt (m ((c.tc : Thread nD τ).loc main_arg9)) (broadcastInDim S400000 ![] bcast_S_S400000 (constantI S_ 32 0#32))) (addi (m ((c.tc : Thread nD τ).loc main_arg9)) (broadcastInDim S400000 ![] bcast_S_S400000 (constantI S_ 32 200000#32))) (m ((c.tc : Thread nD τ).loc main_arg9))))))
def cnt3 : FVec Ideal S100000 .f32 :=
  (Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg10))) (broadcastInDim S400000 ![] bcast_S_S400000 (constant S_ .f32 0x3F800000#32)))
/-- Layer 3 of the arguments. -/
def L3 : Cert.Sage.M2 100000 128 :=
  Cert.Sage.layer (a := 100000) (m ((c.tc : Thread nD τ).loc main_arg2)) (agg3 m c) (Cert.Sage.col (cnt3 m c)) (m ((c.tc : Thread nD τ).loc main_arg22)) (Cert.Sage.row (m ((c.tc : Thread nD τ).loc main_arg23))) (m ((c.tc : Thread nD τ).loc main_arg24))

/-- Layer 4: the messages summed per destination node, and the per-node message count. -/
def agg4 : FVec Ideal S200000x128 .f32 :=
  (Host.scatterAdd scatter_S200000x128_S400000x1_S400000x128_1_0_0_1 (broadcastInDim S200000x128 ![] bcast_S_S200000x128 (constant S_ .f32 0x00000000#32)) (broadcastInDim S400000x1 ![0] bcast_S400000_S400000x1_0 (m ((c.tc : Thread nD τ).loc main_arg12))) (Host.gather gather_S100000x128_S400000x1_S400000x128_1_0_n_n_0_1_1128 (m ((c.tc : Thread nD τ).loc main_arg2)) (broadcastInDim S400000x1 ![0] bcast_S400000_S400000x1_0 (select (cmpi .slt (m ((c.tc : Thread nD τ).loc main_arg11)) (broadcastInDim S400000 ![] bcast_S_S400000 (constantI S_ 32 0#32))) (addi (m ((c.tc : Thread nD τ).loc main_arg11)) (broadcastInDim S400000 ![] bcast_S_S400000 (constantI S_ 32 100000#32))) (m ((c.tc : Thread nD τ).loc main_arg11))))))
def cnt4 : FVec Ideal S200000 .f32 :=
  (Host.scatterAdd scatter_S200000_S400000x1_S400000_n_0_0_1 (broadcastInDim S200000 ![] bcast_S_S200000 (constant S_ .f32 0x00000000#32)) (broadcastInDim S400000x1 ![0] bcast_S400000_S400000x1_0 (m ((c.tc : Thread nD τ).loc main_arg12))) (broadcastInDim S400000 ![] bcast_S_S400000 (constant S_ .f32 0x3F800000#32)))
/-- Layer 4 of the arguments. -/
def L4 : Cert.Sage.M2 200000 128 :=
  Cert.Sage.layer (a := 200000) (m ((c.tc : Thread nD τ).loc main_arg1)) (agg4 m c) (Cert.Sage.col (cnt4 m c)) (m ((c.tc : Thread nD τ).loc main_arg25)) (Cert.Sage.row (m ((c.tc : Thread nD τ).loc main_arg26))) (m ((c.tc : Thread nD τ).loc main_arg27))

/-! ## What each stretch writes, and what it therefore keeps -/

def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

def wr0 : List (Ref sig .tc) := [main_c, main_v0, main_v1, main_c_0, main_v2, main_v3, main_v4, main_v5, main_v6, main_cst, main_v7, main_v8, main_v9, main_cst_1, main_v10, main_cst_2, main_v11, main_v12, main_v13, main_v14, main_v15]
theorem hostOps0_wr : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 0 does not write keeps its contents across it. -/
theorem keep_host0 (Wv : Valuation τ sig (Elt Ideal)) (r : Ref sig .tc) (hr : r ∉ wr0) :
    StableHlo.after hostOps0 Wv (Proc.devRef .tc r) = Wv (Proc.devRef .tc r) :=
  StableHlo.after_of_writes_sub hostOps0 Wv hostOps0_wr hr
theorem args_not_wr0 : ∀ r ∈ argRefs, r ∉ wr0 := by decide

def wr1 : List (Ref sig .tc) := [main_c_3, main_v17, main_v18, main_c_4, main_v19, main_v20, main_v21, main_v22, main_v23, main_cst_5, main_v24, main_v25, main_v26, main_cst_6, main_v27, main_cst_7, main_v28, main_v29, main_v30, main_v31, main_v32]
theorem hostOps1_wr : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 1 does not write keeps its contents across it. -/
theorem keep_host1 (Wv : Valuation τ sig (Elt Ideal)) (r : Ref sig .tc) (hr : r ∉ wr1) :
    StableHlo.after hostOps1 Wv (Proc.devRef .tc r) = Wv (Proc.devRef .tc r) :=
  StableHlo.after_of_writes_sub hostOps1 Wv hostOps1_wr hr
theorem args_not_wr1 : ∀ r ∈ argRefs, r ∉ wr1 := by decide

def wr2 : List (Ref sig .tc) := [main_c_8, main_v34, main_v35, main_c_9, main_v36, main_v37, main_v38, main_v39, main_v40, main_cst_10, main_v41, main_v42, main_v43, main_cst_11, main_v44, main_cst_12, main_v45, main_v46, main_v47, main_v48, main_v49]
theorem hostOps2_wr : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 2 does not write keeps its contents across it. -/
theorem keep_host2 (Wv : Valuation τ sig (Elt Ideal)) (r : Ref sig .tc) (hr : r ∉ wr2) :
    StableHlo.after hostOps2 Wv (Proc.devRef .tc r) = Wv (Proc.devRef .tc r) :=
  StableHlo.after_of_writes_sub hostOps2 Wv hostOps2_wr hr
theorem args_not_wr2 : ∀ r ∈ argRefs, r ∉ wr2 := by decide

def wr3 : List (Ref sig .tc) := [main_c_13, main_v51, main_v52, main_c_14, main_v53, main_v54, main_v55, main_v56, main_v57, main_cst_15, main_v58, main_v59, main_v60, main_cst_16, main_v61, main_cst_17, main_v62, main_v63, main_v64, main_v65, main_v66]
theorem hostOps3_wr : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 3 does not write keeps its contents across it. -/
theorem keep_host3 (Wv : Valuation τ sig (Elt Ideal)) (r : Ref sig .tc) (hr : r ∉ wr3) :
    StableHlo.after hostOps3 Wv (Proc.devRef .tc r) = Wv (Proc.devRef .tc r) :=
  StableHlo.after_of_writes_sub hostOps3 Wv hostOps3_wr hr
theorem args_not_wr3 : ∀ r ∈ argRefs, r ∉ wr3 := by decide

def wr4 : List (Ref sig .tc) := [main_v68, main_c_18, main_v69, main_v70, main_c_19, main_v71, main_v72, main_v73, main_v74, main_v75, main_cst_20, main_v76, main_v77, main_v78, main_cst_21, main_v79, main_cst_22, main_v80, main_v81, main_v82, main_v83, main_v84]
theorem hostOps4_wr : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 4 does not write keeps its contents across it. -/
theorem keep_host4 (Wv : Valuation τ sig (Elt Ideal)) (r : Ref sig .tc) (hr : r ∉ wr4) :
    StableHlo.after hostOps4 Wv (Proc.devRef .tc r) = Wv (Proc.devRef .tc r) :=
  StableHlo.after_of_writes_sub hostOps4 Wv hostOps4_wr hr
theorem args_not_wr4 : ∀ r ∈ argRefs, r ∉ wr4 := by decide

def wr5 : List (Ref sig .tc) := [main_v86]
theorem hostOps5_wr : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer stretch 5 does not write keeps its contents across it. -/
theorem keep_host5 (Wv : Valuation τ sig (Elt Ideal)) (r : Ref sig .tc) (hr : r ∉ wr5) :
    StableHlo.after hostOps5 Wv (Proc.devRef .tc r) = Wv (Proc.devRef .tc r) :=
  StableHlo.after_of_writes_sub hostOps5 Wv hostOps5_wr hr
theorem args_not_wr5 : ∀ r ∈ argRefs, r ∉ wr5 := by decide

/-! ## What each region writes, and what it therefore keeps -/

/-- A buffer other than region 0's result keeps its contents across the region: an array one of its input windows reads is
    left as entered, and any other buffer is not touched. -/
theorem keep_reg0 (r : Ref sig .tc) (hr : r ≠ main_v16) : W2 m ρ c (Proc.devRef .tc r) = W1 m ρ c (Proc.devRef .tc r) := by
  by_cases h : ∀ w, Pipeline.arrRef spec0 w ≠ r
  · exact W2_of_ne m ρ c r h
  · obtain ⟨w, hw⟩ := not_forall.mp h
    have hw' : Pipeline.arrRef spec0 w = r := not_not.mp hw
    subst hw'
    match w, hr with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, _ => exact (W2_arr m ρ c 3).trans (((dat0 (V1 m ρ) c).arrAt_in 3 rfl _).trans (A_eq0 (V1 m ρ) c 3))
    | ⟨4, _⟩, _ => exact (W2_arr m ρ c 4).trans (((dat0 (V1 m ρ) c).arrAt_in 4 rfl _).trans (A_eq0 (V1 m ρ) c 4))
    | ⟨5, _⟩, _ => exact (W2_arr m ρ c 5).trans (((dat0 (V1 m ρ) c).arrAt_in 5 rfl _).trans (A_eq0 (V1 m ρ) c 5))
    | ⟨6, _⟩, hr => exact absurd rfl hr
theorem args_ne_out0 : ∀ r ∈ argRefs, r ≠ main_v16 := by decide

/-- A buffer other than region 1's result keeps its contents across the region: an array one of its input windows reads is
    left as entered, and any other buffer is not touched. -/
theorem keep_reg1 (r : Ref sig .tc) (hr : r ≠ main_v33) : W4 m ρ c (Proc.devRef .tc r) = W3 m ρ c (Proc.devRef .tc r) := by
  by_cases h : ∀ w, Pipeline.arrRef spec1 w ≠ r
  · exact W4_of_ne m ρ c r h
  · obtain ⟨w, hw⟩ := not_forall.mp h
    have hw' : Pipeline.arrRef spec1 w = r := not_not.mp hw
    subst hw'
    match w, hr with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, _ => exact (W4_arr m ρ c 3).trans (((dat1 (V3 m ρ) c).arrAt_in 3 rfl _).trans (A_eq1 (V3 m ρ) c 3))
    | ⟨4, _⟩, _ => exact (W4_arr m ρ c 4).trans (((dat1 (V3 m ρ) c).arrAt_in 4 rfl _).trans (A_eq1 (V3 m ρ) c 4))
    | ⟨5, _⟩, _ => exact (W4_arr m ρ c 5).trans (((dat1 (V3 m ρ) c).arrAt_in 5 rfl _).trans (A_eq1 (V3 m ρ) c 5))
    | ⟨6, _⟩, hr => exact absurd rfl hr
theorem args_ne_out1 : ∀ r ∈ argRefs, r ≠ main_v33 := by decide

/-- A buffer other than region 2's result keeps its contents across the region: an array one of its input windows reads is
    left as entered, and any other buffer is not touched. -/
theorem keep_reg2 (r : Ref sig .tc) (hr : r ≠ main_v50) : W6 m ρ c (Proc.devRef .tc r) = W5 m ρ c (Proc.devRef .tc r) := by
  by_cases h : ∀ w, Pipeline.arrRef spec2 w ≠ r
  · exact W6_of_ne m ρ c r h
  · obtain ⟨w, hw⟩ := not_forall.mp h
    have hw' : Pipeline.arrRef spec2 w = r := not_not.mp hw
    subst hw'
    match w, hr with
    | ⟨0, _⟩, _ => exact (W6_arr m ρ c 0).trans (((dat2 (V5 m ρ) c).arrAt_in 0 rfl _).trans (A_eq2 (V5 m ρ) c 0))
    | ⟨1, _⟩, _ => exact (W6_arr m ρ c 1).trans (((dat2 (V5 m ρ) c).arrAt_in 1 rfl _).trans (A_eq2 (V5 m ρ) c 1))
    | ⟨2, _⟩, _ => exact (W6_arr m ρ c 2).trans (((dat2 (V5 m ρ) c).arrAt_in 2 rfl _).trans (A_eq2 (V5 m ρ) c 2))
    | ⟨3, _⟩, _ => exact (W6_arr m ρ c 3).trans (((dat2 (V5 m ρ) c).arrAt_in 3 rfl _).trans (A_eq2 (V5 m ρ) c 3))
    | ⟨4, _⟩, _ => exact (W6_arr m ρ c 4).trans (((dat2 (V5 m ρ) c).arrAt_in 4 rfl _).trans (A_eq2 (V5 m ρ) c 4))
    | ⟨5, _⟩, _ => exact (W6_arr m ρ c 5).trans (((dat2 (V5 m ρ) c).arrAt_in 5 rfl _).trans (A_eq2 (V5 m ρ) c 5))
    | ⟨6, _⟩, hr => exact absurd rfl hr
theorem args_ne_out2 : ∀ r ∈ argRefs, r ≠ main_v50 := by decide

/-- A buffer other than region 3's result keeps its contents across the region: an array one of its input windows reads is
    left as entered, and any other buffer is not touched. -/
theorem keep_reg3 (r : Ref sig .tc) (hr : r ≠ main_v67) : W8 m ρ c (Proc.devRef .tc r) = W7 m ρ c (Proc.devRef .tc r) := by
  by_cases h : ∀ w, Pipeline.arrRef spec3 w ≠ r
  · exact W8_of_ne m ρ c r h
  · obtain ⟨w, hw⟩ := not_forall.mp h
    have hw' : Pipeline.arrRef spec3 w = r := not_not.mp hw
    subst hw'
    match w, hr with
    | ⟨0, _⟩, _ => exact (W8_arr m ρ c 0).trans (((dat3 (V7 m ρ) c).arrAt_in 0 rfl _).trans (A_eq3 (V7 m ρ) c 0))
    | ⟨1, _⟩, _ => exact (W8_arr m ρ c 1).trans (((dat3 (V7 m ρ) c).arrAt_in 1 rfl _).trans (A_eq3 (V7 m ρ) c 1))
    | ⟨2, _⟩, _ => exact (W8_arr m ρ c 2).trans (((dat3 (V7 m ρ) c).arrAt_in 2 rfl _).trans (A_eq3 (V7 m ρ) c 2))
    | ⟨3, _⟩, _ => exact (W8_arr m ρ c 3).trans (((dat3 (V7 m ρ) c).arrAt_in 3 rfl _).trans (A_eq3 (V7 m ρ) c 3))
    | ⟨4, _⟩, _ => exact (W8_arr m ρ c 4).trans (((dat3 (V7 m ρ) c).arrAt_in 4 rfl _).trans (A_eq3 (V7 m ρ) c 4))
    | ⟨5, _⟩, _ => exact (W8_arr m ρ c 5).trans (((dat3 (V7 m ρ) c).arrAt_in 5 rfl _).trans (A_eq3 (V7 m ρ) c 5))
    | ⟨6, _⟩, hr => exact absurd rfl hr
theorem args_ne_out3 : ∀ r ∈ argRefs, r ≠ main_v67 := by decide

/-- A buffer other than region 4's result keeps its contents across the region: an array one of its input windows reads is
    left as entered, and any other buffer is not touched. -/
theorem keep_reg4 (r : Ref sig .tc) (hr : r ≠ main_v85) : W10 m ρ c (Proc.devRef .tc r) = W9 m ρ c (Proc.devRef .tc r) := by
  by_cases h : ∀ w, Pipeline.arrRef spec4 w ≠ r
  · exact W10_of_ne m ρ c r h
  · obtain ⟨w, hw⟩ := not_forall.mp h
    have hw' : Pipeline.arrRef spec4 w = r := not_not.mp hw
    subst hw'
    match w, hr with
    | ⟨0, _⟩, _ => exact (W10_arr m ρ c 0).trans (((dat4 (V9 m ρ) c).arrAt_in 0 rfl _).trans (A_eq4 (V9 m ρ) c 0))
    | ⟨1, _⟩, _ => exact (W10_arr m ρ c 1).trans (((dat4 (V9 m ρ) c).arrAt_in 1 rfl _).trans (A_eq4 (V9 m ρ) c 1))
    | ⟨2, _⟩, _ => exact (W10_arr m ρ c 2).trans (((dat4 (V9 m ρ) c).arrAt_in 2 rfl _).trans (A_eq4 (V9 m ρ) c 2))
    | ⟨3, _⟩, _ => exact (W10_arr m ρ c 3).trans (((dat4 (V9 m ρ) c).arrAt_in 3 rfl _).trans (A_eq4 (V9 m ρ) c 3))
    | ⟨4, _⟩, _ => exact (W10_arr m ρ c 4).trans (((dat4 (V9 m ρ) c).arrAt_in 4 rfl _).trans (A_eq4 (V9 m ρ) c 4))
    | ⟨5, _⟩, _ => exact (W10_arr m ρ c 5).trans (((dat4 (V9 m ρ) c).arrAt_in 5 rfl _).trans (A_eq4 (V9 m ρ) c 5))
    | ⟨6, _⟩, hr => exact absurd rfl hr
theorem args_ne_out4 : ∀ r ∈ argRefs, r ≠ main_v85 := by decide

/-! ## The arguments at every boundary are the launch memory's -/

theorem W0_arg (r : Ref sig .tc) : W0 m ρ c (Proc.devRef .tc r) = m ((c.tc : Thread nD τ).loc r) := rfl
theorem W1_arg (r : Ref sig .tc) (hr : r ∈ argRefs) : W1 m ρ c (Proc.devRef .tc r) = m ((c.tc : Thread nD τ).loc r) :=
  (keep_host0 (W0 m ρ c) r (args_not_wr0 r hr)).trans (W0_arg m ρ c r)
theorem W2_arg (r : Ref sig .tc) (hr : r ∈ argRefs) : W2 m ρ c (Proc.devRef .tc r) = m ((c.tc : Thread nD τ).loc r) :=
  (keep_reg0 m ρ c r (args_ne_out0 r hr)).trans (W1_arg m ρ c r hr)
theorem W3_arg (r : Ref sig .tc) (hr : r ∈ argRefs) : W3 m ρ c (Proc.devRef .tc r) = m ((c.tc : Thread nD τ).loc r) :=
  (keep_host1 (W2 m ρ c) r (args_not_wr1 r hr)).trans (W2_arg m ρ c r hr)
theorem W4_arg (r : Ref sig .tc) (hr : r ∈ argRefs) : W4 m ρ c (Proc.devRef .tc r) = m ((c.tc : Thread nD τ).loc r) :=
  (keep_reg1 m ρ c r (args_ne_out1 r hr)).trans (W3_arg m ρ c r hr)
theorem W5_arg (r : Ref sig .tc) (hr : r ∈ argRefs) : W5 m ρ c (Proc.devRef .tc r) = m ((c.tc : Thread nD τ).loc r) :=
  (keep_host2 (W4 m ρ c) r (args_not_wr2 r hr)).trans (W4_arg m ρ c r hr)
theorem W6_arg (r : Ref sig .tc) (hr : r ∈ argRefs) : W6 m ρ c (Proc.devRef .tc r) = m ((c.tc : Thread nD τ).loc r) :=
  (keep_reg2 m ρ c r (args_ne_out2 r hr)).trans (W5_arg m ρ c r hr)
theorem W7_arg (r : Ref sig .tc) (hr : r ∈ argRefs) : W7 m ρ c (Proc.devRef .tc r) = m ((c.tc : Thread nD τ).loc r) :=
  (keep_host3 (W6 m ρ c) r (args_not_wr3 r hr)).trans (W6_arg m ρ c r hr)
theorem W8_arg (r : Ref sig .tc) (hr : r ∈ argRefs) : W8 m ρ c (Proc.devRef .tc r) = m ((c.tc : Thread nD τ).loc r) :=
  (keep_reg3 m ρ c r (args_ne_out3 r hr)).trans (W7_arg m ρ c r hr)
theorem W9_arg (r : Ref sig .tc) (hr : r ∈ argRefs) : W9 m ρ c (Proc.devRef .tc r) = m ((c.tc : Thread nD τ).loc r) :=
  (keep_host4 (W8 m ρ c) r (args_not_wr4 r hr)).trans (W8_arg m ρ c r hr)
theorem W10_arg (r : Ref sig .tc) (hr : r ∈ argRefs) : W10 m ρ c (Proc.devRef .tc r) = m ((c.tc : Thread nD τ).loc r) :=
  (keep_reg4 m ρ c r (args_ne_out4 r hr)).trans (W9_arg m ρ c r hr)

end Cert.KernelIdeal.KKeep

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.TileLayer.lean ====
/-
  The kernel body's arithmetic on one block of rows is the layer of SageSpec.lean on that block.

  The body divides the summed messages by the clamped count (a column spread over the row), multiplies the node
  features and the mean messages by the two weight matrices along the weights' rows (products into a zero
  accumulator), adds the bias row spread over the rows, and divides each row by its Euclidean length clamped below:
  the sum of squares along the row, kept as a column, its square root, the maximum with the floor, spread back over
  the row. Entry by entry that is `Cert.Sage.layer`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«180688_j74045236183058_1_alg».proof.Proof.SageSpec
import proofs.«180688_j74045236183058_1_alg».proof.Proof.LibDotsNT
import proofs.«180688_j74045236183058_1_alg».proof.Proof.LibKeepdims

noncomputable section

open scoped BigOperators

namespace Cert.TileLayer

open Idealize.ShloMosaic Idealize.ShloMosaic.ValueIdx Cert.Sage

variable {a : ℕ} (d : DotDims ⟨2, ![a, 128]⟩ ⟨2, ![128, 128]⟩ ⟨2, ![a, 128]⟩)
  (hlc : d.lhsContracting = [1]) (hrc : d.rhsContracting = [1]) (hln : d.lhsNonContracting = [0])
  (hrn : d.rhsNonContracting = [0]) (hlb : d.lhsBatch = []) (hrb : d.rhsBatch = [])
  (hc1 : (⟨2, ![a, 128]⟩ : Shape).ShapeCasts ⟨2, ![a, 128]⟩) (hc2 : (⟨2, ![a, 1]⟩ : Shape).ShapeCasts ⟨2, ![a, 1]⟩)
  (hc3 : (⟨2, ![1, 128]⟩ : Shape).ShapeCasts ⟨2, ![1, 128]⟩) (hc4 : (⟨1, ![a]⟩ : Shape).ShapeCasts ⟨2, ![a, 1]⟩)
  (hb1 : (⟨2, ![a, 1]⟩ : Shape).Broadcasts ⟨2, ![a, 128]⟩) (hb2 : (⟨2, ![1, 128]⟩ : Shape).Broadcasts ⟨2, ![a, 128]⟩)
  (hred : (⟨2, ![a, 128]⟩ : Shape).Reduces [1] (⟨1, ![a]⟩ : Shape)) (hφ : FKind.Formats .f32)
  (hacc : (0x00000000#32 : BitVec 32) = 0x00000000#32)

/-- The body's value before the normalisation, as the body spells it. -/
def tilePre (x0 x1 : FVec Ideal ⟨2, ![a, 128]⟩ .f32) (x2 : FVec Ideal ⟨2, ![a, 1]⟩ .f32) (x3 : FVec Ideal ⟨2, ![128, 128]⟩ .f32)
    (x4 : FVec Ideal ⟨2, ![1, 128]⟩ .f32) (x5 : FVec Ideal ⟨2, ![128, 128]⟩ .f32) : FVec Ideal ⟨2, ![a, 128]⟩ .f32 :=
  addf (addf (matmul d none x0 x3 (constant ⟨2, ![a, 128]⟩ .f32 0x00000000#32))
      (broadcastTo ⟨2, ![a, 128]⟩ (shapeCast ⟨2, ![1, 128]⟩ x4 hc3) hb2))
    (matmul d none (divf (shapeCast ⟨2, ![a, 128]⟩ x1 hc1)
        (broadcastTo ⟨2, ![a, 128]⟩ (maximumf (shapeCast ⟨2, ![a, 1]⟩ x2 hc2) (broadcast ⟨2, ![a, 1]⟩ (Scalar.ofBits (F := Ideal) .f32 0x3F800000#32))) hb1))
      x5 (constant ⟨2, ![a, 128]⟩ .f32 0x00000000#32))

include hlc hrc hln hrn hlb hrb in
/-- Entry (r, q) of that value is `pre` at (r, q): the two products are sums along the weights' rows, the bias row
    and the count column are read in their own row and column. -/
theorem tilePre_apply (x0 x1 : FVec Ideal ⟨2, ![a, 128]⟩ .f32) (x2 : FVec Ideal ⟨2, ![a, 1]⟩ .f32) (x3 : FVec Ideal ⟨2, ![128, 128]⟩ .f32)
    (x4 : FVec Ideal ⟨2, ![1, 128]⟩ .f32) (x5 : FVec Ideal ⟨2, ![128, 128]⟩ .f32) (r : Fin a) (q : Fin 128) :
    tilePre d hc1 hc2 hc3 hb1 hb2 x0 x1 x2 x3 x4 x5 (ix2 r q) = pre x0 x1 x2 x3 x4 x5 r q := by
  unfold tilePre pre
  rw [addf_apply, addf_apply]
  refine congrArg₂ (· + ·) (congrArg₂ (· + ·) ?_ ?_) ?_
  · exact Cert.LibDotsNT.nt_matmul_zero_apply d hlc hrc hln hrn hlb hrb none x0 x3 r q
  · exact Cert.LibKeepdims.row_spread_apply x4 hc3 hb2 r q
  · refine (Cert.LibDotsNT.nt_matmul_zero_apply d hlc hrc hln hrn hlb hrb none _ x5 r q).trans ?_
    refine Finset.sum_congr rfl fun k _ => ?_
    refine congrArg (· * x5 (ix2 q k)) ?_
    unfold mean
    rw [divf_apply, shapeCast_self, Cert.LibKeepdims.broadcastTo_a1_ab_apply, maximumf_apply, shapeCast_self]
    rfl

include hlc hrc hln hrn hlb hrb in
/-- The whole body: the value above divided by its row's clamped length is the layer on the block. -/
theorem tile_layer (x0 x1 : FVec Ideal ⟨2, ![a, 128]⟩ .f32) (x2 : FVec Ideal ⟨2, ![a, 1]⟩ .f32) (x3 : FVec Ideal ⟨2, ![128, 128]⟩ .f32)
    (x4 : FVec Ideal ⟨2, ![1, 128]⟩ .f32) (x5 : FVec Ideal ⟨2, ![128, 128]⟩ .f32) :
    divf (tilePre d hc1 hc2 hc3 hb1 hb2 x0 x1 x2 x3 x4 x5)
      (broadcastTo ⟨2, ![a, 128]⟩
        (maximumf
          (sqrt (shapeCast ⟨2, ![a, 1]⟩
            (multiReduction .add [1] (⟨1, ![a]⟩ : Shape)
              (mulf (tilePre d hc1 hc2 hc3 hb1 hb2 x0 x1 x2 x3 x4 x5) (tilePre d hc1 hc2 hc3 hb1 hb2 x0 x1 x2 x3 x4 x5))
              0x00000000#32 hred hφ hacc) hc4))
          (broadcast ⟨2, ![a, 1]⟩ (Scalar.ofBits (F := Ideal) .f32 0x2B8CBCCC#32))) hb1)
      = layer x0 x1 x2 x3 x4 x5 := by
  funext j
  obtain ⟨r, q, rfl⟩ : ∃ (r : Fin a) (q : Fin 128), j = ix2 r q := ⟨j 0, j 1, eq_ix2 j⟩
  rw [layer_ix2, divf_apply, Cert.LibKeepdims.broadcastTo_a1_ab_apply, maximumf_apply,
    tilePre_apply d hlc hrc hln hrn hlb hrb hc1 hc2 hc3 hb1 hb2]
  refine congrArg (Ideal.div _) (congrArg₂ max ?_ rfl)
  show Ideal.sqrt (shapeCast ⟨2, ![a, 1]⟩ _ hc4 (ix2 r (0 : Fin 1))) = _
  rw [Cert.LibKeepdims.shapeCast_a_a1_apply, Cert.LibKeepdims.rowSum_apply]
  refine congrArg Ideal.sqrt (Finset.sum_congr rfl fun c _ => ?_)
  rw [mulf_apply, tilePre_apply d hlc hrc hln hrn hlb hrb hc1 hc2 hc3 hb1 hb2]

end Cert.TileLayer

end
-- ==== Proof.KBlock0.lean ====
/-
  Region 0 of the idealized kernel: whatever the buffers hold when the region is entered, its result array ends
  holding the layer of SageSpec.lean of the six arrays its windows read, row block by row block.

  Point t of the grid reads rows 5000 t ... 5000 t + 4999 of the three node arrays and the whole of the weights and the
  bias row, and writes back rows 5000 t ... 5000 t + 4999 of the result; an entry of the layer looks at its own row of
  the node arrays only, so the block written back is the block of the whole layer, and the 40 blocks cover the array.
-/
import proofs.«180688_j74045236183058_1_alg».proof.Proof.Gen.KernelIdeal.Frame
import proofs.«180688_j74045236183058_1_alg».proof.Proof.TileLayer
import Idealize.ShloMosaic.Lib.Pipeline.Value

set_option maxRecDepth 16384

noncomputable section

namespace Cert.KernelIdeal.KBlock0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its six loaded blocks. -/
theorem pay (x0 x1 : Vec Ideal S5000x128 .f32) (x2 : Vec Ideal S5000x1 .f32) (x3 : Vec Ideal S128x128 .f32)
    (x4 : Vec Ideal S1x128 .f32) (x5 : Vec Ideal S128x128 .f32) :
    k0_pay1 (F := Ideal) x0 x1 x2 x3 x4 x5 = Cert.Sage.layer (a := 5000) x0 x1 x2 x3 x4 x5 := by
  unfold k0_pay1
  exact Cert.TileLayer.tile_layer dot_S5000x128_S128x128_S5000x128_1_1_0_0_n_n rfl rfl rfl rfl rfl rfl
    shapeCasts_S5000x128_S5000x128 shapeCasts_S5000x1_S5000x1 shapeCasts_S1x128_S1x128 shapeCasts_S5000_S5000x1
    broadcasts_S5000x1_S5000x128 broadcasts_S1x128_S5000x128 reduces_S5000x128_S5000 (.inl rfl) rfl x0 x1 x2 x3 x4 x5

/-- The printed index maps over the grid: the three node windows and the result window sit at block row t, column block
    0; the weights and the bias sit at block (0, 0). -/
theorem idx : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 3 holds its whole array at every point. -/
theorem blk3 (c : Dev nD) (t : Fin cfg0.N) : iblk0 V c 3 t = V c (Pipeline.arrRef spec0 3) := by
  obtain ⟨e00, e01, e10, e11, e20, e21, e30, e31, e40, e41, e50, e51, e60, e61⟩ := idx t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 holds its whole array at every point. -/
theorem blk4 (c : Dev nD) (t : Fin cfg0.N) : iblk0 V c 4 t = V c (Pipeline.arrRef spec0 4) := by
  obtain ⟨e00, e01, e10, e11, e20, e21, e30, e31, e40, e41, e50, e51, e60, e61⟩ := idx t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 holds its whole array at every point. -/
theorem blk5 (c : Dev nD) (t : Fin cfg0.N) : iblk0 V c 5 t = V c (Pipeline.arrRef spec0 5) := by
  obtain ⟨e00, e01, e10, e11, e20, e21, e30, e31, e40, e41, e50, e51, e60, e61⟩ := idx t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 0's block at point t is rows 5000 t ... of its array: entry (r, k) of the block is entry (5000 t + r, k). -/
theorem row0 (c : Dev nD) (t : Fin cfg0.N) (j : S5000x128.Idx) (k : Fin 128) :
    iblk0 V c 0 t (ix2 (j 0) k) = V c (Pipeline.arrRef spec0 0) (ix2 ((((cfg0.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec0 0) (((cfg0.win 0).blk t).view.emb (ix2 (j 0) k)) = V c (Pipeline.arrRef spec0 0) (ix2 ((((cfg0.win 6).blk t).view.emb j) 0) k)
  refine congrArg _ (funext fun a => Fin.ext ?_)
  match a with
  | ⟨0, _⟩ => show win0_0.index t (0 : Fin 2) * 5000 + 1 * (j 0).val = win0_6.index t (0 : Fin 2) * 5000 + 1 * (j 0).val; omega
  | ⟨1, _⟩ => show win0_0.index t (1 : Fin 2) * 128 + 1 * k.val = k.val; omega

/-- Window 1's block at point t is rows 5000 t ... of its array: entry (r, k) of the block is entry (5000 t + r, k). -/
theorem row1 (c : Dev nD) (t : Fin cfg0.N) (j : S5000x128.Idx) (k : Fin 128) :
    iblk0 V c 1 t (ix2 (j 0) k) = V c (Pipeline.arrRef spec0 1) (ix2 ((((cfg0.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec0 1) (((cfg0.win 1).blk t).view.emb (ix2 (j 0) k)) = V c (Pipeline.arrRef spec0 1) (ix2 ((((cfg0.win 6).blk t).view.emb j) 0) k)
  refine congrArg _ (funext fun a => Fin.ext ?_)
  match a with
  | ⟨0, _⟩ => show win0_1.index t (0 : Fin 2) * 5000 + 1 * (j 0).val = win0_6.index t (0 : Fin 2) * 5000 + 1 * (j 0).val; omega
  | ⟨1, _⟩ => show win0_1.index t (1 : Fin 2) * 128 + 1 * k.val = k.val; omega

/-- The count window's block at point t is rows 5000 t ... of the count column. -/
theorem row2 (c : Dev nD) (t : Fin cfg0.N) (j : S5000x128.Idx) :
    iblk0 V c 2 t (ix2 (j 0) (0 : Fin 1)) = V c (Pipeline.arrRef spec0 2) (ix2 ((((cfg0.win 6).blk t).view.emb j) 0) (0 : Fin 1)) := by
  obtain ⟨e00, e01, e10, e11, e20, e21, e30, e31, e40, e41, e50, e51, e60, e61⟩ := idx t
  have hj0 : (j 0).val < 5000 := (j 0).isLt
  show V c (Pipeline.arrRef spec0 2) (((cfg0.win 2).blk t).view.emb (ix2 (j 0) (0 : Fin 1))) = V c (Pipeline.arrRef spec0 2) (ix2 ((((cfg0.win 6).blk t).view.emb j) 0) (0 : Fin 1))
  refine congrArg _ (funext fun a => Fin.ext ?_)
  match a with
  | ⟨0, _⟩ => show win0_2.index t (0 : Fin 2) * 5000 + 1 * (j 0).val = win0_6.index t (0 : Fin 2) * 5000 + 1 * (j 0).val; omega
  | ⟨1, _⟩ => show win0_2.index t (1 : Fin 2) * 1 + 1 * 0 = 0; omega

/-- The column of an entry of the result block is its column in the array. -/
theorem col6 (t : Fin cfg0.N) (j : S5000x128.Idx) : j 1 = (((cfg0.win 6).blk t).view.emb j) 1 := by
  obtain ⟨e00, e01, e10, e11, e20, e21, e30, e31, e40, e41, e50, e51, e60, e61⟩ := idx t
  refine Fin.ext ?_
  show (j 1).val = win0_6.index t (1 : Fin 2) * 128 + 1 * (j 1).val
  omega

set_option maxHeartbeats 1600000 in
/-- What point t writes back is block t of the layer of the arrays as the region finds them. -/
theorem flushed (c : Dev nD) (t : Fin cfg0.N) :
    (dat0 V c).flushed 6 t = ((cfg0.win 6).blk t).view.read (Elt Ideal)
      (Cert.Sage.layer (a := 200000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay]
  funext j
  show Cert.Sage.layer (a := 5000) (iblk0 V c 0 t) (iblk0 V c 1 t) (iblk0 V c 2 t) (iblk0 V c 3 t) (iblk0 V c 4 t) (iblk0 V c 5 t) j
    = Cert.Sage.layer (a := 200000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (((cfg0.win 6).blk t).view.emb j)
  exact Cert.Sage.layer_congr (a := 200000) (a' := 5000) (V c (Pipeline.arrRef spec0 0)) (V c (Pipeline.arrRef spec0 1)) (V c (Pipeline.arrRef spec0 2))
    (iblk0 V c 0 t) (iblk0 V c 1 t) (iblk0 V c 2 t)
    (V c (Pipeline.arrRef spec0 3)) (V c (Pipeline.arrRef spec0 4)) (V c (Pipeline.arrRef spec0 5))
    (iblk0 V c 3 t) (iblk0 V c 4 t) (iblk0 V c 5 t) (((cfg0.win 6).blk t).view.emb j) j
    (blk3 V c t) (blk4 V c t) (blk5 V c t) (col6 t j) (row0 V c t j) (row1 V c t j) (row2 V c t j)

/-- An index of the result array is in point t's block iff each coordinate is in the block's range on its axis. -/
theorem mem_blk (t : Fin cfg0.N) (i : S200000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Every entry of the result array is written back by the point that holds its row: row r by point r / 5000. -/
theorem cover (i : S200000x128.Idx) : ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 40 := N_0
  have ht : (i 0).val / 5000 < cfg0.N := by rw [hN]; omega
  obtain ⟨e00, e01, e10, e11, e20, e21, e30, e31, e40, e41, e50, e51, e60, e61⟩ := idx (⟨(i 0).val / 5000, ht⟩ : Fin cfg0.N)
  have e60' : win0_6.index (⟨(i 0).val / 5000, ht⟩ : Fin cfg0.N) (0 : Fin 2) = (i 0).val / 5000 := e60
  refine ⟨⟨(i 0).val / 5000, ht⟩, flush0_6 _, ?_⟩
  rw [mem_blk]
  intro a
  match a with
  | ⟨0, _⟩ =>
    show win0_6.index _ (0 : Fin 2) * 5000 ≤ (i 0).val ∧ (i 0).val < win0_6.index _ (0 : Fin 2) * 5000 + 5000
    rw [e60']; omega
  | ⟨1, _⟩ =>
    show win0_6.index _ (1 : Fin 2) * 128 ≤ (i 1).val ∧ (i 1).val < win0_6.index _ (1 : Fin 2) * 128 + 128
    rw [e61]; omega

/-- The result array after the region: the layer of the arrays as the region finds them. -/
theorem final (c : Dev nD) :
    (dat0 V c).arrAt 6 cfg0.N = Cert.Sage.layer (a := 200000) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed V c t) cover

end Cert.KernelIdeal.KBlock0

end
-- ==== Proof.KLayer0.lean ====
/-
  Layer 0 of the idealized kernel: the stretch of host operations before region 0 leaves, in the arrays the region's
  windows read, the summed messages, the message counts as a column and the bias as a row, all computed from the
  arguments; so the region's result array ends at layer 0 of the arguments.
-/
import proofs.«180688_j74045236183058_1_alg».proof.Proof.KKeep
import proofs.«180688_j74045236183058_1_alg».proof.Proof.KBlock0

set_option maxRecDepth 16384

noncomputable section

namespace Cert.KernelIdeal.KLayer0

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

set_option maxHeartbeats 4000000 in
/-- Region 0 finds the summed messages of layer 0 in its second window's array, -/
theorem in_agg : V1 m ρ c main_v9 = agg0 m c := by
  show StableHlo.after hostOps0 (W0 m ρ c) (Proc.devRef .tc main_v9) = _
  dsimp only [hostOps0]
  after_results
  rfl
set_option maxHeartbeats 4000000 in
/-- the message counts, as a column, in its third, -/
theorem in_cnt : V1 m ρ c main_v14 = Cert.Sage.col (cnt0 m c) := by
  show StableHlo.after hostOps0 (W0 m ρ c) (Proc.devRef .tc main_v14) = _
  dsimp only [hostOps0]
  after_results
  exact Cert.KLayout.bcast_col _ _
set_option maxHeartbeats 4000000 in
/-- and the bias, as a row, in its fifth. -/
theorem in_b : V1 m ρ c main_v15 = Cert.Sage.row (m ((c.tc : Thread nD τ).loc main_arg14)) := by
  show StableHlo.after hostOps0 (W0 m ρ c) (Proc.devRef .tc main_v15) = _
  dsimp only [hostOps0]
  after_results
  exact Cert.KLayout.cast_row _ _
set_option maxHeartbeats 4000000 in
/-- So region 0 leaves layer 0 of the arguments in its result array. -/
theorem out : W2 m ρ c (Proc.devRef .tc main_v16) = L0 m c := by
  refine (W2_arr m ρ c 6).trans ((Cert.KernelIdeal.KBlock0.final (V1 m ρ) c).trans ?_)
  show Cert.Sage.layer (a := 200000) (V1 m ρ c main_arg1) (V1 m ρ c main_v9) (V1 m ρ c main_v14) (V1 m ρ c main_arg13) (V1 m ρ c main_v15) (V1 m ρ c main_arg15) = _
  rw [in_agg, in_cnt, in_b]
  show Cert.Sage.layer (a := 200000) (W1 m ρ c (Proc.devRef .tc main_arg1)) (agg0 m c) (Cert.Sage.col (cnt0 m c)) (W1 m ρ c (Proc.devRef .tc main_arg13)) (Cert.Sage.row (m ((c.tc : Thread nD τ).loc main_arg14))) (W1 m ρ c (Proc.devRef .tc main_arg15)) = _
  rw [W1_arg m ρ c main_arg1 (by decide), W1_arg m ρ c main_arg13 (by decide), W1_arg m ρ c main_arg15 (by decide)]
  rfl

end Cert.KernelIdeal.KLayer0

end
-- ==== Proof.KBlock1.lean ====
/-
  Region 1 of the idealized kernel: whatever the buffers hold when the region is entered, its result array ends
  holding the layer of SageSpec.lean of the six arrays its windows read, row block by row block.

  Point t of the grid reads rows 5000 t ... 5000 t + 4999 of the three node arrays and the whole of the weights and the
  bias row, and writes back rows 5000 t ... 5000 t + 4999 of the result; an entry of the layer looks at its own row of
  the node arrays only, so the block written back is the block of the whole layer, and the 20 blocks cover the array.
-/
import proofs.«180688_j74045236183058_1_alg».proof.Proof.Gen.KernelIdeal.Frame
import proofs.«180688_j74045236183058_1_alg».proof.Proof.TileLayer
import Idealize.ShloMosaic.Lib.Pipeline.Value

set_option maxRecDepth 16384

noncomputable section

namespace Cert.KernelIdeal.KBlock1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its six loaded blocks. -/
theorem pay (x0 x1 : Vec Ideal S5000x128 .f32) (x2 : Vec Ideal S5000x1 .f32) (x3 : Vec Ideal S128x128 .f32)
    (x4 : Vec Ideal S1x128 .f32) (x5 : Vec Ideal S128x128 .f32) :
    k1_pay1 (F := Ideal) x0 x1 x2 x3 x4 x5 = Cert.Sage.layer (a := 5000) x0 x1 x2 x3 x4 x5 := by
  unfold k1_pay1
  exact Cert.TileLayer.tile_layer dot_S5000x128_S128x128_S5000x128_1_1_0_0_n_n rfl rfl rfl rfl rfl rfl
    shapeCasts_S5000x128_S5000x128 shapeCasts_S5000x1_S5000x1 shapeCasts_S1x128_S1x128 shapeCasts_S5000_S5000x1
    broadcasts_S5000x1_S5000x128 broadcasts_S1x128_S5000x128 reduces_S5000x128_S5000 (.inl rfl) rfl x0 x1 x2 x3 x4 x5

/-- The printed index maps over the grid: the three node windows and the result window sit at block row t, column block
    0; the weights and the bias sit at block (0, 0). -/
theorem idx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 3 holds its whole array at every point. -/
theorem blk3 (c : Dev nD) (t : Fin cfg1.N) : iblk1 V c 3 t = V c (Pipeline.arrRef spec1 3) := by
  obtain ⟨e00, e01, e10, e11, e20, e21, e30, e31, e40, e41, e50, e51, e60, e61⟩ := idx t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4 holds its whole array at every point. -/
theorem blk4 (c : Dev nD) (t : Fin cfg1.N) : iblk1 V c 4 t = V c (Pipeline.arrRef spec1 4) := by
  obtain ⟨e00, e01, e10, e11, e20, e21, e30, e31, e40, e41, e50, e51, e60, e61⟩ := idx t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 holds its whole array at every point. -/
theorem blk5 (c : Dev nD) (t : Fin cfg1.N) : iblk1 V c 5 t = V c (Pipeline.arrRef spec1 5) := by
  obtain ⟨e00, e01, e10, e11, e20, e21, e30, e31, e40, e41, e50, e51, e60, e61⟩ := idx t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 0's block at point t is rows 5000 t ... of its array: entry (r, k) of the block is entry (5000 t + r, k). -/
theorem row0 (c : Dev nD) (t : Fin cfg1.N) (j : S5000x128.Idx) (k : Fin 128) :
    iblk1 V c 0 t (ix2 (j 0) k) = V c (Pipeline.arrRef spec1 0) (ix2 ((((cfg1.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec1 0) (((cfg1.win 0).blk t).view.emb (ix2 (j 0) k)) = V c (Pipeline.arrRef spec1 0) (ix2 ((((cfg1.win 6).blk t).view.emb j) 0) k)
  refine congrArg _ (funext fun a => Fin.ext ?_)
  match a with
  | ⟨0, _⟩ => show win1_0.index t (0 : Fin 2) * 5000 + 1 * (j 0).val = win1_6.index t (0 : Fin 2) * 5000 + 1 * (j 0).val; omega
  | ⟨1, _⟩ => show win1_0.index t (1 : Fin 2) * 128 + 1 * k.val = k.val; omega

/-- Window 1's block at point t is rows 5000 t ... of its array: entry (r, k) of the block is entry (5000 t + r, k). -/
theorem row1 (c : Dev nD) (t : Fin cfg1.N) (j : S5000x128.Idx) (k : Fin 128) :
    iblk1 V c 1 t (ix2 (j 0) k) = V c (Pipeline.arrRef spec1 1) (ix2 ((((cfg1.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec1 1) (((cfg1.win 1).blk t).view.emb (ix2 (j 0) k)) = V c (Pipeline.arrRef spec1 1) (ix2 ((((cfg1.win 6).blk t).view.emb j) 0) k)
  refine congrArg _ (funext fun a => Fin.ext ?_)
  match a with
  | ⟨0, _⟩ => show win1_1.index t (0 : Fin 2) * 5000 + 1 * (j 0).val = win1_6.index t (0 : Fin 2) * 5000 + 1 * (j 0).val; omega
  | ⟨1, _⟩ => show win1_1.index t (1 : Fin 2) * 128 + 1 * k.val = k.val; omega

/-- The count window's block at point t is rows 5000 t ... of the count column. -/
theorem row2 (c : Dev nD) (t : Fin cfg1.N) (j : S5000x128.Idx) :
    iblk1 V c 2 t (ix2 (j 0) (0 : Fin 1)) = V c (Pipeline.arrRef spec1 2) (ix2 ((((cfg1.win 6).blk t).view.emb j) 0) (0 : Fin 1)) := by
  obtain ⟨e00, e01, e10, e11, e20, e21, e30, e31, e40, e41, e50, e51, e60, e61⟩ := idx t
  have hj0 : (j 0).val < 5000 := (j 0).isLt
  show V c (Pipeline.arrRef spec1 2) (((cfg1.win 2).blk t).view.emb (ix2 (j 0) (0 : Fin 1))) = V c (Pipeline.arrRef spec1 2) (ix2 ((((cfg1.win 6).blk t).view.emb j) 0) (0 : Fin 1))
  refine congrArg _ (funext fun a => Fin.ext ?_)
  match a with
  | ⟨0, _⟩ => show win1_2.index t (0 : Fin 2) * 5000 + 1 * (j 0).val = win1_6.index t (0 : Fin 2) * 5000 + 1 * (j 0).val; omega
  | ⟨1, _⟩ => show win1_2.index t (1 : Fin 2) * 1 + 1 * 0 = 0; omega

/-- The column of an entry of the result block is its column in the array. -/
theorem col6 (t : Fin cfg1.N) (j : S5000x128.Idx) : j 1 = (((cfg1.win 6).blk t).view.emb j) 1 := by
  obtain ⟨e00, e01, e10, e11, e20, e21, e30, e31, e40, e41, e50, e51, e60, e61⟩ := idx t
  refine Fin.ext ?_
  show (j 1).val = win1_6.index t (1 : Fin 2) * 128 + 1 * (j 1).val
  omega

set_option maxHeartbeats 1600000 in
/-- What point t writes back is block t of the layer of the arrays as the region finds them. -/
theorem flushed (c : Dev nD) (t : Fin cfg1.N) :
    (dat1 V c).flushed 6 t = ((cfg1.win 6).blk t).view.read (Elt Ideal)
      (Cert.Sage.layer (a := 100000) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  rw [pay]
  funext j
  show Cert.Sage.layer (a := 5000) (iblk1 V c 0 t) (iblk1 V c 1 t) (iblk1 V c 2 t) (iblk1 V c 3 t) (iblk1 V c 4 t) (iblk1 V c 5 t) j
    = Cert.Sage.layer (a := 100000) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (((cfg1.win 6).blk t).view.emb j)
  exact Cert.Sage.layer_congr (a := 100000) (a' := 5000) (V c (Pipeline.arrRef spec1 0)) (V c (Pipeline.arrRef spec1 1)) (V c (Pipeline.arrRef spec1 2))
    (iblk1 V c 0 t) (iblk1 V c 1 t) (iblk1 V c 2 t)
    (V c (Pipeline.arrRef spec1 3)) (V c (Pipeline.arrRef spec1 4)) (V c (Pipeline.arrRef spec1 5))
    (iblk1 V c 3 t) (iblk1 V c 4 t) (iblk1 V c 5 t) (((cfg1.win 6).blk t).view.emb j) j
    (blk3 V c t) (blk4 V c t) (blk5 V c t) (col6 t j) (row0 V c t j) (row1 V c t j) (row2 V c t j)

/-- An index of the result array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v33).slice (win1_6.rect t)).set ↔ _
  rw [View.set_slice_whole, Rect.mem_set_unit]
  exact Iff.rfl

/-- Every entry of the result array is written back by the point that holds its row: row r by point r / 5000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e00, e01, e10, e11, e20, e21, e30, e31, e40, e41, e50, e51, e60, e61⟩ := idx (⟨(i 0).val / 5000, ht⟩ : Fin cfg1.N)
  have e60' : win1_6.index (⟨(i 0).val / 5000, ht⟩ : Fin cfg1.N) (0 : Fin 2) = (i 0).val / 5000 := e60
  refine ⟨⟨(i 0).val / 5000, ht⟩, flush1_6 _, ?_⟩
  rw [mem_blk]
  intro a
  match a with
  | ⟨0, _⟩ =>
    show win1_6.index _ (0 : Fin 2) * 5000 ≤ (i 0).val ∧ (i 0).val < win1_6.index _ (0 : Fin 2) * 5000 + 5000
    rw [e60']; omega
  | ⟨1, _⟩ =>
    show win1_6.index _ (1 : Fin 2) * 128 ≤ (i 1).val ∧ (i 1).val < win1_6.index _ (1 : Fin 2) * 128 + 128
    rw [e61]; omega

/-- The result array after the region: the layer of the arrays as the region finds them. -/
theorem final (c : Dev nD) :
    (dat1 V c).arrAt 6 cfg1.N = Cert.Sage.layer (a := 100000) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V c).arrAt_eq_of_cover 6 _ (fun t _ => flushed V c t) cover

end Cert.KernelIdeal.KBlock1

end
-- ==== Proof.KLayer1.lean ====
/-
  Layer 1 of the idealized kernel: the stretch of host operations before region 1 leaves, in the arrays the region's
  windows read, the summed messages, the message counts as a column and the bias as a row, all computed from the
  arguments; so the region's result array ends at layer 1 of the arguments.
-/
import proofs.«180688_j74045236183058_1_alg».proof.Proof.KKeep
import proofs.«180688_j74045236183058_1_alg».proof.Proof.KBlock1

set_option maxRecDepth 16384

noncomputable section

namespace Cert.KernelIdeal.KLayer1

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

set_option maxHeartbeats 4000000 in
/-- Region 1 finds the summed messages of layer 1 in its second window's array, -/
theorem in_agg : V3 m ρ c main_v26 = agg1 m c := by
  show StableHlo.after hostOps1 (W2 m ρ c) (Proc.devRef .tc main_v26) = _
  dsimp only [hostOps1]
  after_results
  rw [W2_arg m ρ c main_arg0 (by decide), W2_arg m ρ c main_arg5 (by decide), W2_arg m ρ c main_arg6 (by decide)]
  rfl
set_option maxHeartbeats 4000000 in
/-- the message counts, as a column, in its third, -/
theorem in_cnt : V3 m ρ c main_v31 = Cert.Sage.col (cnt1 m c) := by
  show StableHlo.after hostOps1 (W2 m ρ c) (Proc.devRef .tc main_v31) = _
  dsimp only [hostOps1]
  after_results
  rw [W2_arg m ρ c main_arg6 (by decide)]
  exact Cert.KLayout.bcast_col _ _
set_option maxHeartbeats 4000000 in
/-- and the bias, as a row, in its fifth. -/
theorem in_b : V3 m ρ c main_v32 = Cert.Sage.row (m ((c.tc : Thread nD τ).loc main_arg17)) := by
  show StableHlo.after hostOps1 (W2 m ρ c) (Proc.devRef .tc main_v32) = _
  dsimp only [hostOps1]
  after_results
  rw [W2_arg m ρ c main_arg17 (by decide)]
  exact Cert.KLayout.cast_row _ _
set_option maxHeartbeats 4000000 in
/-- So region 1 leaves layer 1 of the arguments in its result array. -/
theorem out : W4 m ρ c (Proc.devRef .tc main_v33) = L1 m c := by
  refine (W4_arr m ρ c 6).trans ((Cert.KernelIdeal.KBlock1.final (V3 m ρ) c).trans ?_)
  show Cert.Sage.layer (a := 100000) (V3 m ρ c main_arg2) (V3 m ρ c main_v26) (V3 m ρ c main_v31) (V3 m ρ c main_arg16) (V3 m ρ c main_v32) (V3 m ρ c main_arg18) = _
  rw [in_agg, in_cnt, in_b]
  show Cert.Sage.layer (a := 100000) (W3 m ρ c (Proc.devRef .tc main_arg2)) (agg1 m c) (Cert.Sage.col (cnt1 m c)) (W3 m ρ c (Proc.devRef .tc main_arg16)) (Cert.Sage.row (m ((c.tc : Thread nD τ).loc main_arg17))) (W3 m ρ c (Proc.devRef .tc main_arg18)) = _
  rw [W3_arg m ρ c main_arg2 (by decide), W3_arg m ρ c main_arg16 (by decide), W3_arg m ρ c main_arg18 (by decide)]
  rfl

end Cert.KernelIdeal.KLayer1

end
-- ==== Proof.KBlock2.lean ====
/-
  Region 2 of the idealized kernel: whatever the buffers hold when the region is entered, its result array ends
  holding the layer of SageSpec.lean of the six arrays its windows read, row block by row block.

  Point t of the grid reads rows 5000 t ... 5000 t + 4999 of the three node arrays and the whole of the weights and the
  bias row, and writes back rows 5000 t ... 5000 t + 4999 of the result; an entry of the layer looks at its own row of
  the node arrays only, so the block written back is the block of the whole layer, and the 20 blocks cover the array.
-/
import proofs.«180688_j74045236183058_1_alg».proof.Proof.Gen.KernelIdeal.Frame
import proofs.«180688_j74045236183058_1_alg».proof.Proof.TileLayer
import Idealize.ShloMosaic.Lib.Pipeline.Value

set_option maxRecDepth 16384

noncomputable section

namespace Cert.KernelIdeal.KBlock2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its six loaded blocks. -/
theorem pay (x0 x1 : Vec Ideal S5000x128 .f32) (x2 : Vec Ideal S5000x1 .f32) (x3 : Vec Ideal S128x128 .f32)
    (x4 : Vec Ideal S1x128 .f32) (x5 : Vec Ideal S128x128 .f32) :
    k2_pay1 (F := Ideal) x0 x1 x2 x3 x4 x5 = Cert.Sage.layer (a := 5000) x0 x1 x2 x3 x4 x5 := by
  unfold k2_pay1
  exact Cert.TileLayer.tile_layer dot_S5000x128_S128x128_S5000x128_1_1_0_0_n_n rfl rfl rfl rfl rfl rfl
    shapeCasts_S5000x128_S5000x128 shapeCasts_S5000x1_S5000x1 shapeCasts_S1x128_S1x128 shapeCasts_S5000_S5000x1
    broadcasts_S5000x1_S5000x128 broadcasts_S1x128_S5000x128 reduces_S5000x128_S5000 (.inl rfl) rfl x0 x1 x2 x3 x4 x5

/-- The printed index maps over the grid: the three node windows and the result window sit at block row t, column block
    0; the weights and the bias sit at block (0, 0). -/
theorem idx : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 3 holds its whole array at every point. -/
theorem blk3 (c : Dev nD) (t : Fin cfg2.N) : iblk2 V c 3 t = V c (Pipeline.arrRef spec2 3) := by
  obtain ⟨e00, e01, e10, e11, e20, e21, e30, e31, e40, e41, e50, e51, e60, e61⟩ := idx t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 holds its whole array at every point. -/
theorem blk4 (c : Dev nD) (t : Fin cfg2.N) : iblk2 V c 4 t = V c (Pipeline.arrRef spec2 4) := by
  obtain ⟨e00, e01, e10, e11, e20, e21, e30, e31, e40, e41, e50, e51, e60, e61⟩ := idx t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 holds its whole array at every point. -/
theorem blk5 (c : Dev nD) (t : Fin cfg2.N) : iblk2 V c 5 t = V c (Pipeline.arrRef spec2 5) := by
  obtain ⟨e00, e01, e10, e11, e20, e21, e30, e31, e40, e41, e50, e51, e60, e61⟩ := idx t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 0's block at point t is rows 5000 t ... of its array: entry (r, k) of the block is entry (5000 t + r, k). -/
theorem row0 (c : Dev nD) (t : Fin cfg2.N) (j : S5000x128.Idx) (k : Fin 128) :
    iblk2 V c 0 t (ix2 (j 0) k) = V c (Pipeline.arrRef spec2 0) (ix2 ((((cfg2.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec2 0) (((cfg2.win 0).blk t).view.emb (ix2 (j 0) k)) = V c (Pipeline.arrRef spec2 0) (ix2 ((((cfg2.win 6).blk t).view.emb j) 0) k)
  refine congrArg _ (funext fun a => Fin.ext ?_)
  match a with
  | ⟨0, _⟩ => show win2_0.index t (0 : Fin 2) * 5000 + 1 * (j 0).val = win2_6.index t (0 : Fin 2) * 5000 + 1 * (j 0).val; omega
  | ⟨1, _⟩ => show win2_0.index t (1 : Fin 2) * 128 + 1 * k.val = k.val; omega

/-- Window 1's block at point t is rows 5000 t ... of its array: entry (r, k) of the block is entry (5000 t + r, k). -/
theorem row1 (c : Dev nD) (t : Fin cfg2.N) (j : S5000x128.Idx) (k : Fin 128) :
    iblk2 V c 1 t (ix2 (j 0) k) = V c (Pipeline.arrRef spec2 1) (ix2 ((((cfg2.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec2 1) (((cfg2.win 1).blk t).view.emb (ix2 (j 0) k)) = V c (Pipeline.arrRef spec2 1) (ix2 ((((cfg2.win 6).blk t).view.emb j) 0) k)
  refine congrArg _ (funext fun a => Fin.ext ?_)
  match a with
  | ⟨0, _⟩ => show win2_1.index t (0 : Fin 2) * 5000 + 1 * (j 0).val = win2_6.index t (0 : Fin 2) * 5000 + 1 * (j 0).val; omega
  | ⟨1, _⟩ => show win2_1.index t (1 : Fin 2) * 128 + 1 * k.val = k.val; omega

/-- The count window's block at point t is rows 5000 t ... of the count column. -/
theorem row2 (c : Dev nD) (t : Fin cfg2.N) (j : S5000x128.Idx) :
    iblk2 V c 2 t (ix2 (j 0) (0 : Fin 1)) = V c (Pipeline.arrRef spec2 2) (ix2 ((((cfg2.win 6).blk t).view.emb j) 0) (0 : Fin 1)) := by
  obtain ⟨e00, e01, e10, e11, e20, e21, e30, e31, e40, e41, e50, e51, e60, e61⟩ := idx t
  have hj0 : (j 0).val < 5000 := (j 0).isLt
  show V c (Pipeline.arrRef spec2 2) (((cfg2.win 2).blk t).view.emb (ix2 (j 0) (0 : Fin 1))) = V c (Pipeline.arrRef spec2 2) (ix2 ((((cfg2.win 6).blk t).view.emb j) 0) (0 : Fin 1))
  refine congrArg _ (funext fun a => Fin.ext ?_)
  match a with
  | ⟨0, _⟩ => show win2_2.index t (0 : Fin 2) * 5000 + 1 * (j 0).val = win2_6.index t (0 : Fin 2) * 5000 + 1 * (j 0).val; omega
  | ⟨1, _⟩ => show win2_2.index t (1 : Fin 2) * 1 + 1 * 0 = 0; omega

/-- The column of an entry of the result block is its column in the array. -/
theorem col6 (t : Fin cfg2.N) (j : S5000x128.Idx) : j 1 = (((cfg2.win 6).blk t).view.emb j) 1 := by
  obtain ⟨e00, e01, e10, e11, e20, e21, e30, e31, e40, e41, e50, e51, e60, e61⟩ := idx t
  refine Fin.ext ?_
  show (j 1).val = win2_6.index t (1 : Fin 2) * 128 + 1 * (j 1).val
  omega

set_option maxHeartbeats 1600000 in
/-- What point t writes back is block t of the layer of the arrays as the region finds them. -/
theorem flushed (c : Dev nD) (t : Fin cfg2.N) :
    (dat2 V c).flushed 6 t = ((cfg2.win 6).blk t).view.read (Elt Ideal)
      (Cert.Sage.layer (a := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  rw [pay]
  funext j
  show Cert.Sage.layer (a := 5000) (iblk2 V c 0 t) (iblk2 V c 1 t) (iblk2 V c 2 t) (iblk2 V c 3 t) (iblk2 V c 4 t) (iblk2 V c 5 t) j
    = Cert.Sage.layer (a := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (((cfg2.win 6).blk t).view.emb j)
  exact Cert.Sage.layer_congr (a := 100000) (a' := 5000) (V c (Pipeline.arrRef spec2 0)) (V c (Pipeline.arrRef spec2 1)) (V c (Pipeline.arrRef spec2 2))
    (iblk2 V c 0 t) (iblk2 V c 1 t) (iblk2 V c 2 t)
    (V c (Pipeline.arrRef spec2 3)) (V c (Pipeline.arrRef spec2 4)) (V c (Pipeline.arrRef spec2 5))
    (iblk2 V c 3 t) (iblk2 V c 4 t) (iblk2 V c 5 t) (((cfg2.win 6).blk t).view.emb j) j
    (blk3 V c t) (blk4 V c t) (blk5 V c t) (col6 t j) (row0 V c t j) (row1 V c t j) (row2 V c t j)

/-- An index of the result array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v50).slice (win2_6.rect t)).set ↔ _
  rw [View.set_slice_whole, Rect.mem_set_unit]
  exact Iff.rfl

/-- Every entry of the result array is written back by the point that holds its row: row r by point r / 5000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e00, e01, e10, e11, e20, e21, e30, e31, e40, e41, e50, e51, e60, e61⟩ := idx (⟨(i 0).val / 5000, ht⟩ : Fin cfg2.N)
  have e60' : win2_6.index (⟨(i 0).val / 5000, ht⟩ : Fin cfg2.N) (0 : Fin 2) = (i 0).val / 5000 := e60
  refine ⟨⟨(i 0).val / 5000, ht⟩, flush2_6 _, ?_⟩
  rw [mem_blk]
  intro a
  match a with
  | ⟨0, _⟩ =>
    show win2_6.index _ (0 : Fin 2) * 5000 ≤ (i 0).val ∧ (i 0).val < win2_6.index _ (0 : Fin 2) * 5000 + 5000
    rw [e60']; omega
  | ⟨1, _⟩ =>
    show win2_6.index _ (1 : Fin 2) * 128 ≤ (i 1).val ∧ (i 1).val < win2_6.index _ (1 : Fin 2) * 128 + 128
    rw [e61]; omega

/-- The result array after the region: the layer of the arrays as the region finds them. -/
theorem final (c : Dev nD) :
    (dat2 V c).arrAt 6 cfg2.N = Cert.Sage.layer (a := 100000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 _ (fun t _ => flushed V c t) cover

end Cert.KernelIdeal.KBlock2

end
-- ==== Proof.KLayer2.lean ====
/-
  Layer 2 of the idealized kernel: the stretch of host operations before region 2 leaves, in the arrays the region's
  windows read, the summed messages, the message counts as a column and the bias as a row, all computed from the
  arguments; so the region's result array ends at layer 2 of the arguments.
-/
import proofs.«180688_j74045236183058_1_alg».proof.Proof.KKeep
import proofs.«180688_j74045236183058_1_alg».proof.Proof.KBlock2

set_option maxRecDepth 16384

noncomputable section

namespace Cert.KernelIdeal.KLayer2

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

set_option maxHeartbeats 4000000 in
/-- Region 2 finds the summed messages of layer 2 in its second window's array, -/
theorem in_agg : V5 m ρ c main_v43 = agg2 m c := by
  show StableHlo.after hostOps2 (W4 m ρ c) (Proc.devRef .tc main_v43) = _
  dsimp only [hostOps2]
  after_results
  rw [W4_arg m ρ c main_arg1 (by decide), W4_arg m ρ c main_arg7 (by decide), W4_arg m ρ c main_arg8 (by decide)]
  rfl
set_option maxHeartbeats 4000000 in
/-- the message counts, as a column, in its third, -/
theorem in_cnt : V5 m ρ c main_v48 = Cert.Sage.col (cnt2 m c) := by
  show StableHlo.after hostOps2 (W4 m ρ c) (Proc.devRef .tc main_v48) = _
  dsimp only [hostOps2]
  after_results
  rw [W4_arg m ρ c main_arg8 (by decide)]
  exact Cert.KLayout.bcast_col _ _
set_option maxHeartbeats 4000000 in
/-- and the bias, as a row, in its fifth. -/
theorem in_b : V5 m ρ c main_v49 = Cert.Sage.row (m ((c.tc : Thread nD τ).loc main_arg20)) := by
  show StableHlo.after hostOps2 (W4 m ρ c) (Proc.devRef .tc main_v49) = _
  dsimp only [hostOps2]
  after_results
  rw [W4_arg m ρ c main_arg20 (by decide)]
  exact Cert.KLayout.cast_row _ _
set_option maxHeartbeats 4000000 in
/-- So region 2 leaves layer 2 of the arguments in its result array. -/
theorem out : W6 m ρ c (Proc.devRef .tc main_v50) = L2 m c := by
  refine (W6_arr m ρ c 6).trans ((Cert.KernelIdeal.KBlock2.final (V5 m ρ) c).trans ?_)
  show Cert.Sage.layer (a := 100000) (V5 m ρ c main_arg0) (V5 m ρ c main_v43) (V5 m ρ c main_v48) (V5 m ρ c main_arg19) (V5 m ρ c main_v49) (V5 m ρ c main_arg21) = _
  rw [in_agg, in_cnt, in_b]
  show Cert.Sage.layer (a := 100000) (W5 m ρ c (Proc.devRef .tc main_arg0)) (agg2 m c) (Cert.Sage.col (cnt2 m c)) (W5 m ρ c (Proc.devRef .tc main_arg19)) (Cert.Sage.row (m ((c.tc : Thread nD τ).loc main_arg20))) (W5 m ρ c (Proc.devRef .tc main_arg21)) = _
  rw [W5_arg m ρ c main_arg0 (by decide), W5_arg m ρ c main_arg19 (by decide), W5_arg m ρ c main_arg21 (by decide)]
  rfl

end Cert.KernelIdeal.KLayer2

end
-- ==== Proof.KBlock3.lean ====
/-
  Region 3 of the idealized kernel: whatever the buffers hold when the region is entered, its result array ends
  holding the layer of SageSpec.lean of the six arrays its windows read, row block by row block.

  Point t of the grid reads rows 5000 t ... 5000 t + 4999 of the three node arrays and the whole of the weights and the
  bias row, and writes back rows 5000 t ... 5000 t + 4999 of the result; an entry of the layer looks at its own row of
  the node arrays only, so the block written back is the block of the whole layer, and the 20 blocks cover the array.
-/
import proofs.«180688_j74045236183058_1_alg».proof.Proof.Gen.KernelIdeal.Frame
import proofs.«180688_j74045236183058_1_alg».proof.Proof.TileLayer
import Idealize.ShloMosaic.Lib.Pipeline.Value

set_option maxRecDepth 16384

noncomputable section

namespace Cert.KernelIdeal.KBlock3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its six loaded blocks. -/
theorem pay (x0 x1 : Vec Ideal S5000x128 .f32) (x2 : Vec Ideal S5000x1 .f32) (x3 : Vec Ideal S128x128 .f32)
    (x4 : Vec Ideal S1x128 .f32) (x5 : Vec Ideal S128x128 .f32) :
    k3_pay1 (F := Ideal) x0 x1 x2 x3 x4 x5 = Cert.Sage.layer (a := 5000) x0 x1 x2 x3 x4 x5 := by
  unfold k3_pay1
  exact Cert.TileLayer.tile_layer dot_S5000x128_S128x128_S5000x128_1_1_0_0_n_n rfl rfl rfl rfl rfl rfl
    shapeCasts_S5000x128_S5000x128 shapeCasts_S5000x1_S5000x1 shapeCasts_S1x128_S1x128 shapeCasts_S5000_S5000x1
    broadcasts_S5000x1_S5000x128 broadcasts_S1x128_S5000x128 reduces_S5000x128_S5000 (.inl rfl) rfl x0 x1 x2 x3 x4 x5

/-- The printed index maps over the grid: the three node windows and the result window sit at block row t, column block
    0; the weights and the bias sit at block (0, 0). -/
theorem idx : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 3 holds its whole array at every point. -/
theorem blk3 (c : Dev nD) (t : Fin cfg3.N) : iblk3 V c 3 t = V c (Pipeline.arrRef spec3 3) := by
  obtain ⟨e00, e01, e10, e11, e20, e21, e30, e31, e40, e41, e50, e51, e60, e61⟩ := idx t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4 holds its whole array at every point. -/
theorem blk4 (c : Dev nD) (t : Fin cfg3.N) : iblk3 V c 4 t = V c (Pipeline.arrRef spec3 4) := by
  obtain ⟨e00, e01, e10, e11, e20, e21, e30, e31, e40, e41, e50, e51, e60, e61⟩ := idx t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5 holds its whole array at every point. -/
theorem blk5 (c : Dev nD) (t : Fin cfg3.N) : iblk3 V c 5 t = V c (Pipeline.arrRef spec3 5) := by
  obtain ⟨e00, e01, e10, e11, e20, e21, e30, e31, e40, e41, e50, e51, e60, e61⟩ := idx t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 0's block at point t is rows 5000 t ... of its array: entry (r, k) of the block is entry (5000 t + r, k). -/
theorem row0 (c : Dev nD) (t : Fin cfg3.N) (j : S5000x128.Idx) (k : Fin 128) :
    iblk3 V c 0 t (ix2 (j 0) k) = V c (Pipeline.arrRef spec3 0) (ix2 ((((cfg3.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec3 0) (((cfg3.win 0).blk t).view.emb (ix2 (j 0) k)) = V c (Pipeline.arrRef spec3 0) (ix2 ((((cfg3.win 6).blk t).view.emb j) 0) k)
  refine congrArg _ (funext fun a => Fin.ext ?_)
  match a with
  | ⟨0, _⟩ => show win3_0.index t (0 : Fin 2) * 5000 + 1 * (j 0).val = win3_6.index t (0 : Fin 2) * 5000 + 1 * (j 0).val; omega
  | ⟨1, _⟩ => show win3_0.index t (1 : Fin 2) * 128 + 1 * k.val = k.val; omega

/-- Window 1's block at point t is rows 5000 t ... of its array: entry (r, k) of the block is entry (5000 t + r, k). -/
theorem row1 (c : Dev nD) (t : Fin cfg3.N) (j : S5000x128.Idx) (k : Fin 128) :
    iblk3 V c 1 t (ix2 (j 0) k) = V c (Pipeline.arrRef spec3 1) (ix2 ((((cfg3.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec3 1) (((cfg3.win 1).blk t).view.emb (ix2 (j 0) k)) = V c (Pipeline.arrRef spec3 1) (ix2 ((((cfg3.win 6).blk t).view.emb j) 0) k)
  refine congrArg _ (funext fun a => Fin.ext ?_)
  match a with
  | ⟨0, _⟩ => show win3_1.index t (0 : Fin 2) * 5000 + 1 * (j 0).val = win3_6.index t (0 : Fin 2) * 5000 + 1 * (j 0).val; omega
  | ⟨1, _⟩ => show win3_1.index t (1 : Fin 2) * 128 + 1 * k.val = k.val; omega

/-- The count window's block at point t is rows 5000 t ... of the count column. -/
theorem row2 (c : Dev nD) (t : Fin cfg3.N) (j : S5000x128.Idx) :
    iblk3 V c 2 t (ix2 (j 0) (0 : Fin 1)) = V c (Pipeline.arrRef spec3 2) (ix2 ((((cfg3.win 6).blk t).view.emb j) 0) (0 : Fin 1)) := by
  obtain ⟨e00, e01, e10, e11, e20, e21, e30, e31, e40, e41, e50, e51, e60, e61⟩ := idx t
  have hj0 : (j 0).val < 5000 := (j 0).isLt
  show V c (Pipeline.arrRef spec3 2) (((cfg3.win 2).blk t).view.emb (ix2 (j 0) (0 : Fin 1))) = V c (Pipeline.arrRef spec3 2) (ix2 ((((cfg3.win 6).blk t).view.emb j) 0) (0 : Fin 1))
  refine congrArg _ (funext fun a => Fin.ext ?_)
  match a with
  | ⟨0, _⟩ => show win3_2.index t (0 : Fin 2) * 5000 + 1 * (j 0).val = win3_6.index t (0 : Fin 2) * 5000 + 1 * (j 0).val; omega
  | ⟨1, _⟩ => show win3_2.index t (1 : Fin 2) * 1 + 1 * 0 = 0; omega

/-- The column of an entry of the result block is its column in the array. -/
theorem col6 (t : Fin cfg3.N) (j : S5000x128.Idx) : j 1 = (((cfg3.win 6).blk t).view.emb j) 1 := by
  obtain ⟨e00, e01, e10, e11, e20, e21, e30, e31, e40, e41, e50, e51, e60, e61⟩ := idx t
  refine Fin.ext ?_
  show (j 1).val = win3_6.index t (1 : Fin 2) * 128 + 1 * (j 1).val
  omega

set_option maxHeartbeats 1600000 in
/-- What point t writes back is block t of the layer of the arrays as the region finds them. -/
theorem flushed (c : Dev nD) (t : Fin cfg3.N) :
    (dat3 V c).flushed 6 t = ((cfg3.win 6).blk t).view.read (Elt Ideal)
      (Cert.Sage.layer (a := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz,
    View.ld_unit_zero (S := S128x128) hz, View.ld_unit_zero (S := S1x128) hz]
  rw [pay]
  funext j
  show Cert.Sage.layer (a := 5000) (iblk3 V c 0 t) (iblk3 V c 1 t) (iblk3 V c 2 t) (iblk3 V c 3 t) (iblk3 V c 4 t) (iblk3 V c 5 t) j
    = Cert.Sage.layer (a := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (((cfg3.win 6).blk t).view.emb j)
  exact Cert.Sage.layer_congr (a := 100000) (a' := 5000) (V c (Pipeline.arrRef spec3 0)) (V c (Pipeline.arrRef spec3 1)) (V c (Pipeline.arrRef spec3 2))
    (iblk3 V c 0 t) (iblk3 V c 1 t) (iblk3 V c 2 t)
    (V c (Pipeline.arrRef spec3 3)) (V c (Pipeline.arrRef spec3 4)) (V c (Pipeline.arrRef spec3 5))
    (iblk3 V c 3 t) (iblk3 V c 4 t) (iblk3 V c 5 t) (((cfg3.win 6).blk t).view.emb j) j
    (blk3 V c t) (blk4 V c t) (blk5 V c t) (col6 t j) (row0 V c t j) (row1 V c t j) (row2 V c t j)

/-- An index of the result array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v67).slice (win3_6.rect t)).set ↔ _
  rw [View.set_slice_whole, Rect.mem_set_unit]
  exact Iff.rfl

/-- Every entry of the result array is written back by the point that holds its row: row r by point r / 5000. -/
theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e00, e01, e10, e11, e20, e21, e30, e31, e40, e41, e50, e51, e60, e61⟩ := idx (⟨(i 0).val / 5000, ht⟩ : Fin cfg3.N)
  have e60' : win3_6.index (⟨(i 0).val / 5000, ht⟩ : Fin cfg3.N) (0 : Fin 2) = (i 0).val / 5000 := e60
  refine ⟨⟨(i 0).val / 5000, ht⟩, flush3_6 _, ?_⟩
  rw [mem_blk]
  intro a
  match a with
  | ⟨0, _⟩ =>
    show win3_6.index _ (0 : Fin 2) * 5000 ≤ (i 0).val ∧ (i 0).val < win3_6.index _ (0 : Fin 2) * 5000 + 5000
    rw [e60']; omega
  | ⟨1, _⟩ =>
    show win3_6.index _ (1 : Fin 2) * 128 ≤ (i 1).val ∧ (i 1).val < win3_6.index _ (1 : Fin 2) * 128 + 128
    rw [e61]; omega

/-- The result array after the region: the layer of the arrays as the region finds them. -/
theorem final (c : Dev nD) :
    (dat3 V c).arrAt 6 cfg3.N = Cert.Sage.layer (a := 100000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 V c).arrAt_eq_of_cover 6 _ (fun t _ => flushed V c t) cover

end Cert.KernelIdeal.KBlock3

end
-- ==== Proof.KLayer3.lean ====
/-
  Layer 3 of the idealized kernel: the stretch of host operations before region 3 leaves, in the arrays the region's
  windows read, the summed messages, the message counts as a column and the bias as a row, all computed from the
  arguments; so the region's result array ends at layer 3 of the arguments.
-/
import proofs.«180688_j74045236183058_1_alg».proof.Proof.KKeep
import proofs.«180688_j74045236183058_1_alg».proof.Proof.KBlock3

set_option maxRecDepth 16384

noncomputable section

namespace Cert.KernelIdeal.KLayer3

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

set_option maxHeartbeats 4000000 in
/-- Region 3 finds the summed messages of layer 3 in its second window's array, -/
theorem in_agg : V7 m ρ c main_v60 = agg3 m c := by
  show StableHlo.after hostOps3 (W6 m ρ c) (Proc.devRef .tc main_v60) = _
  dsimp only [hostOps3]
  after_results
  rw [W6_arg m ρ c main_arg1 (by decide), W6_arg m ρ c main_arg9 (by decide), W6_arg m ρ c main_arg10 (by decide)]
  rfl
set_option maxHeartbeats 4000000 in
/-- the message counts, as a column, in its third, -/
theorem in_cnt : V7 m ρ c main_v65 = Cert.Sage.col (cnt3 m c) := by
  show StableHlo.after hostOps3 (W6 m ρ c) (Proc.devRef .tc main_v65) = _
  dsimp only [hostOps3]
  after_results
  rw [W6_arg m ρ c main_arg10 (by decide)]
  exact Cert.KLayout.bcast_col _ _
set_option maxHeartbeats 4000000 in
/-- and the bias, as a row, in its fifth. -/
theorem in_b : V7 m ρ c main_v66 = Cert.Sage.row (m ((c.tc : Thread nD τ).loc main_arg23)) := by
  show StableHlo.after hostOps3 (W6 m ρ c) (Proc.devRef .tc main_v66) = _
  dsimp only [hostOps3]
  after_results
  rw [W6_arg m ρ c main_arg23 (by decide)]
  exact Cert.KLayout.cast_row _ _
set_option maxHeartbeats 4000000 in
/-- So region 3 leaves layer 3 of the arguments in its result array. -/
theorem out : W8 m ρ c (Proc.devRef .tc main_v67) = L3 m c := by
  refine (W8_arr m ρ c 6).trans ((Cert.KernelIdeal.KBlock3.final (V7 m ρ) c).trans ?_)
  show Cert.Sage.layer (a := 100000) (V7 m ρ c main_arg2) (V7 m ρ c main_v60) (V7 m ρ c main_v65) (V7 m ρ c main_arg22) (V7 m ρ c main_v66) (V7 m ρ c main_arg24) = _
  rw [in_agg, in_cnt, in_b]
  show Cert.Sage.layer (a := 100000) (W7 m ρ c (Proc.devRef .tc main_arg2)) (agg3 m c) (Cert.Sage.col (cnt3 m c)) (W7 m ρ c (Proc.devRef .tc main_arg22)) (Cert.Sage.row (m ((c.tc : Thread nD τ).loc main_arg23))) (W7 m ρ c (Proc.devRef .tc main_arg24)) = _
  rw [W7_arg m ρ c main_arg2 (by decide), W7_arg m ρ c main_arg22 (by decide), W7_arg m ρ c main_arg24 (by decide)]
  rfl

end Cert.KernelIdeal.KLayer3

end
-- ==== Proof.KBlock4.lean ====
/-
  Region 4 of the idealized kernel: whatever the buffers hold when the region is entered, its result array ends
  holding the layer of SageSpec.lean of the six arrays its windows read, row block by row block.

  Point t of the grid reads rows 5000 t ... 5000 t + 4999 of the three node arrays and the whole of the weights and the
  bias row, and writes back rows 5000 t ... 5000 t + 4999 of the result; an entry of the layer looks at its own row of
  the node arrays only, so the block written back is the block of the whole layer, and the 40 blocks cover the array.
-/
import proofs.«180688_j74045236183058_1_alg».proof.Proof.Gen.KernelIdeal.Frame
import proofs.«180688_j74045236183058_1_alg».proof.Proof.TileLayer
import Idealize.ShloMosaic.Lib.Pipeline.Value

set_option maxRecDepth 16384

noncomputable section

namespace Cert.KernelIdeal.KBlock4

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its six loaded blocks. -/
theorem pay (x0 x1 : Vec Ideal S5000x128 .f32) (x2 : Vec Ideal S5000x1 .f32) (x3 : Vec Ideal S128x128 .f32)
    (x4 : Vec Ideal S1x128 .f32) (x5 : Vec Ideal S128x128 .f32) :
    k4_pay1 (F := Ideal) x0 x1 x2 x3 x4 x5 = Cert.Sage.layer (a := 5000) x0 x1 x2 x3 x4 x5 := by
  unfold k4_pay1
  exact Cert.TileLayer.tile_layer dot_S5000x128_S128x128_S5000x128_1_1_0_0_n_n rfl rfl rfl rfl rfl rfl
    shapeCasts_S5000x128_S5000x128 shapeCasts_S5000x1_S5000x1 shapeCasts_S1x128_S1x128 shapeCasts_S5000_S5000x1
    broadcasts_S5000x1_S5000x128 broadcasts_S1x128_S5000x128 reduces_S5000x128_S5000 (.inl rfl) rfl x0 x1 x2 x3 x4 x5

/-- The printed index maps over the grid: the three node windows and the result window sit at block row t, column block
    0; the weights and the bias sit at block (0, 0). -/
theorem idx : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Window 3 holds its whole array at every point. -/
theorem blk3 (c : Dev nD) (t : Fin cfg4.N) : iblk4 V c 3 t = V c (Pipeline.arrRef spec4 3) := by
  obtain ⟨e00, e01, e10, e11, e20, e21, e30, e31, e40, e41, e50, e51, e60, e61⟩ := idx t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4 holds its whole array at every point. -/
theorem blk4 (c : Dev nD) (t : Fin cfg4.N) : iblk4 V c 4 t = V c (Pipeline.arrRef spec4 4) := by
  obtain ⟨e00, e01, e10, e11, e20, e21, e30, e31, e40, e41, e50, e51, e60, e61⟩ := idx t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5 holds its whole array at every point. -/
theorem blk5 (c : Dev nD) (t : Fin cfg4.N) : iblk4 V c 5 t = V c (Pipeline.arrRef spec4 5) := by
  obtain ⟨e00, e01, e10, e11, e20, e21, e30, e31, e40, e41, e50, e51, e60, e61⟩ := idx t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- Window 0's block at point t is rows 5000 t ... of its array: entry (r, k) of the block is entry (5000 t + r, k). -/
theorem row0 (c : Dev nD) (t : Fin cfg4.N) (j : S5000x128.Idx) (k : Fin 128) :
    iblk4 V c 0 t (ix2 (j 0) k) = V c (Pipeline.arrRef spec4 0) (ix2 ((((cfg4.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec4 0) (((cfg4.win 0).blk t).view.emb (ix2 (j 0) k)) = V c (Pipeline.arrRef spec4 0) (ix2 ((((cfg4.win 6).blk t).view.emb j) 0) k)
  refine congrArg _ (funext fun a => Fin.ext ?_)
  match a with
  | ⟨0, _⟩ => show win4_0.index t (0 : Fin 2) * 5000 + 1 * (j 0).val = win4_6.index t (0 : Fin 2) * 5000 + 1 * (j 0).val; omega
  | ⟨1, _⟩ => show win4_0.index t (1 : Fin 2) * 128 + 1 * k.val = k.val; omega

/-- Window 1's block at point t is rows 5000 t ... of its array: entry (r, k) of the block is entry (5000 t + r, k). -/
theorem row1 (c : Dev nD) (t : Fin cfg4.N) (j : S5000x128.Idx) (k : Fin 128) :
    iblk4 V c 1 t (ix2 (j 0) k) = V c (Pipeline.arrRef spec4 1) (ix2 ((((cfg4.win 6).blk t).view.emb j) 0) k) := by
  obtain ⟨e00, e01, e10, e11, e20, e21, e30, e31, e40, e41, e50, e51, e60, e61⟩ := idx t
  have hj0 : (j 0).val < 5000 := (j 0).isLt
  show V c (Pipeline.arrRef spec4 1) (((cfg4.win 1).blk t).view.emb (ix2 (j 0) k)) = V c (Pipeline.arrRef spec4 1) (ix2 ((((cfg4.win 6).blk t).view.emb j) 0) k)
  refine congrArg _ (funext fun a => Fin.ext ?_)
  match a with
  | ⟨0, _⟩ => show win4_1.index t (0 : Fin 2) * 5000 + 1 * (j 0).val = win4_6.index t (0 : Fin 2) * 5000 + 1 * (j 0).val; omega
  | ⟨1, _⟩ => show win4_1.index t (1 : Fin 2) * 128 + 1 * k.val = k.val; omega

/-- The count window's block at point t is rows 5000 t ... of the count column. -/
theorem row2 (c : Dev nD) (t : Fin cfg4.N) (j : S5000x128.Idx) :
    iblk4 V c 2 t (ix2 (j 0) (0 : Fin 1)) = V c (Pipeline.arrRef spec4 2) (ix2 ((((cfg4.win 6).blk t).view.emb j) 0) (0 : Fin 1)) := by
  obtain ⟨e00, e01, e10, e11, e20, e21, e30, e31, e40, e41, e50, e51, e60, e61⟩ := idx t
  have hj0 : (j 0).val < 5000 := (j 0).isLt
  show V c (Pipeline.arrRef spec4 2) (((cfg4.win 2).blk t).view.emb (ix2 (j 0) (0 : Fin 1))) = V c (Pipeline.arrRef spec4 2) (ix2 ((((cfg4.win 6).blk t).view.emb j) 0) (0 : Fin 1))
  refine congrArg _ (funext fun a => Fin.ext ?_)
  match a with
  | ⟨0, _⟩ => show win4_2.index t (0 : Fin 2) * 5000 + 1 * (j 0).val = win4_6.index t (0 : Fin 2) * 5000 + 1 * (j 0).val; omega
  | ⟨1, _⟩ => show win4_2.index t (1 : Fin 2) * 1 + 1 * 0 = 0; omega

/-- The column of an entry of the result block is its column in the array. -/
theorem col6 (t : Fin cfg4.N) (j : S5000x128.Idx) : j 1 = (((cfg4.win 6).blk t).view.emb j) 1 := by
  obtain ⟨e00, e01, e10, e11, e20, e21, e30, e31, e40, e41, e50, e51, e60, e61⟩ := idx t
  refine Fin.ext ?_
  show (j 1).val = win4_6.index t (1 : Fin 2) * 128 + 1 * (j 1).val
  omega

set_option maxHeartbeats 1600000 in
/-- What point t writes back is block t of the layer of the arrays as the region finds them. -/
theorem flushed (c : Dev nD) (t : Fin cfg4.N) :
    (dat4 V c).flushed 6 t = ((cfg4.win 6).blk t).view.read (Elt Ideal)
      (Cert.Sage.layer (a := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz]
  simp only [View.ld_unit_zero (S := S5000x128) hz, View.ld_unit_zero (S := S5000x1) hz,
    View.ld_unit_zero (S := S128x128) hz, View.ld_unit_zero (S := S1x128) hz]
  rw [pay]
  funext j
  show Cert.Sage.layer (a := 5000) (iblk4 V c 0 t) (iblk4 V c 1 t) (iblk4 V c 2 t) (iblk4 V c 3 t) (iblk4 V c 4 t) (iblk4 V c 5 t) j
    = Cert.Sage.layer (a := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (((cfg4.win 6).blk t).view.emb j)
  exact Cert.Sage.layer_congr (a := 200000) (a' := 5000) (V c (Pipeline.arrRef spec4 0)) (V c (Pipeline.arrRef spec4 1)) (V c (Pipeline.arrRef spec4 2))
    (iblk4 V c 0 t) (iblk4 V c 1 t) (iblk4 V c 2 t)
    (V c (Pipeline.arrRef spec4 3)) (V c (Pipeline.arrRef spec4 4)) (V c (Pipeline.arrRef spec4 5))
    (iblk4 V c 3 t) (iblk4 V c 4 t) (iblk4 V c 5 t) (((cfg4.win 6).blk t).view.emb j) j
    (blk3 V c t) (blk4 V c t) (blk5 V c t) (col6 t j) (row0 V c t j) (row1 V c t j) (row2 V c t j)

/-- An index of the result array is in point t's block iff each coordinate is in the block's range on its axis. -/
theorem mem_blk (t : Fin cfg4.N) (i : S200000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v85).slice (win4_6.rect t)).set ↔ _
  rw [View.set_slice_whole, Rect.mem_set_unit]
  exact Iff.rfl

/-- Every entry of the result array is written back by the point that holds its row: row r by point r / 5000. -/
theorem cover (i : S200000x128.Idx) : ∃ t : Fin cfg4.N, (cfg4.win 6).flush t = true ∧ i ∈ ((cfg4.win 6).blk t).view.set := by
  have hi0 : (i 0).val < 200000 := (i 0).isLt
  have hi1 : (i 1).val < 128 := (i 1).isLt
  have hN : cfg4.N = 40 := N_4
  have ht : (i 0).val / 5000 < cfg4.N := by rw [hN]; omega
  obtain ⟨e00, e01, e10, e11, e20, e21, e30, e31, e40, e41, e50, e51, e60, e61⟩ := idx (⟨(i 0).val / 5000, ht⟩ : Fin cfg4.N)
  have e60' : win4_6.index (⟨(i 0).val / 5000, ht⟩ : Fin cfg4.N) (0 : Fin 2) = (i 0).val / 5000 := e60
  refine ⟨⟨(i 0).val / 5000, ht⟩, flush4_6 _, ?_⟩
  rw [mem_blk]
  intro a
  match a with
  | ⟨0, _⟩ =>
    show win4_6.index _ (0 : Fin 2) * 5000 ≤ (i 0).val ∧ (i 0).val < win4_6.index _ (0 : Fin 2) * 5000 + 5000
    rw [e60']; omega
  | ⟨1, _⟩ =>
    show win4_6.index _ (1 : Fin 2) * 128 ≤ (i 1).val ∧ (i 1).val < win4_6.index _ (1 : Fin 2) * 128 + 128
    rw [e61]; omega

/-- The result array after the region: the layer of the arrays as the region finds them. -/
theorem final (c : Dev nD) :
    (dat4 V c).arrAt 6 cfg4.N = Cert.Sage.layer (a := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 V c).arrAt_eq_of_cover 6 _ (fun t _ => flushed V c t) cover

end Cert.KernelIdeal.KBlock4

end
-- ==== Proof.KLayer4.lean ====
/-
  Layer 4 of the idealized kernel: the stretch of host operations before region 4 leaves, in the arrays the region's
  windows read, the summed messages, the message counts as a column and the bias as a row, all computed from the
  arguments; so the region's result array ends at layer 4 of the arguments.
-/
import proofs.«180688_j74045236183058_1_alg».proof.Proof.KKeep
import proofs.«180688_j74045236183058_1_alg».proof.Proof.KBlock4

set_option maxRecDepth 16384

noncomputable section

namespace Cert.KernelIdeal.KLayer4

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

set_option maxHeartbeats 4000000 in
/-- Region 4 finds the summed messages of layer 4 in its second window's array, -/
theorem in_agg : V9 m ρ c main_v78 = agg4 m c := by
  show StableHlo.after hostOps4 (W8 m ρ c) (Proc.devRef .tc main_v78) = _
  dsimp only [hostOps4]
  after_results
  rw [W8_arg m ρ c main_arg2 (by decide), W8_arg m ρ c main_arg11 (by decide), W8_arg m ρ c main_arg12 (by decide)]
  rfl
set_option maxHeartbeats 4000000 in
/-- the message counts, as a column, in its third, -/
theorem in_cnt : V9 m ρ c main_v83 = Cert.Sage.col (cnt4 m c) := by
  show StableHlo.after hostOps4 (W8 m ρ c) (Proc.devRef .tc main_v83) = _
  dsimp only [hostOps4]
  after_results
  rw [W8_arg m ρ c main_arg12 (by decide)]
  exact Cert.KLayout.bcast_col _ _
set_option maxHeartbeats 4000000 in
/-- and the bias, as a row, in its fifth. -/
theorem in_b : V9 m ρ c main_v84 = Cert.Sage.row (m ((c.tc : Thread nD τ).loc main_arg26)) := by
  show StableHlo.after hostOps4 (W8 m ρ c) (Proc.devRef .tc main_v84) = _
  dsimp only [hostOps4]
  after_results
  rw [W8_arg m ρ c main_arg26 (by decide)]
  exact Cert.KLayout.cast_row _ _
set_option maxHeartbeats 4000000 in
/-- So region 4 leaves layer 4 of the arguments in its result array. -/
theorem out : W10 m ρ c (Proc.devRef .tc main_v85) = L4 m c := by
  refine (W10_arr m ρ c 6).trans ((Cert.KernelIdeal.KBlock4.final (V9 m ρ) c).trans ?_)
  show Cert.Sage.layer (a := 200000) (V9 m ρ c main_arg1) (V9 m ρ c main_v78) (V9 m ρ c main_v83) (V9 m ρ c main_arg25) (V9 m ρ c main_v84) (V9 m ρ c main_arg27) = _
  rw [in_agg, in_cnt, in_b]
  show Cert.Sage.layer (a := 200000) (W9 m ρ c (Proc.devRef .tc main_arg1)) (agg4 m c) (Cert.Sage.col (cnt4 m c)) (W9 m ρ c (Proc.devRef .tc main_arg25)) (Cert.Sage.row (m ((c.tc : Thread nD τ).loc main_arg26))) (W9 m ρ c (Proc.devRef .tc main_arg27)) = _
  rw [W9_arg m ρ c main_arg1 (by decide), W9_arg m ρ c main_arg25 (by decide), W9_arg m ρ c main_arg27 (by decide)]
  rfl

end Cert.KernelIdeal.KLayer4

end
-- ==== Proof.KChain.lean ====
/-
  The idealized kernel's three results as functions of its arguments: the third layer; the sum of the first and fifth
  layers; the sum of the second and fourth. A region's result array is written by that region only, so it still holds
  its layer when a later host operation reads it and at the end of the program.
-/
import proofs.«180688_j74045236183058_1_alg».proof.Proof.KKeep
import proofs.«180688_j74045236183058_1_alg».proof.Proof.KLayer0
import proofs.«180688_j74045236183058_1_alg».proof.Proof.KLayer1
import proofs.«180688_j74045236183058_1_alg».proof.Proof.KLayer2
import proofs.«180688_j74045236183058_1_alg».proof.Proof.KLayer3
import proofs.«180688_j74045236183058_1_alg».proof.Proof.KLayer4

set_option maxRecDepth 16384

noncomputable section

namespace Cert.KernelIdeal.KChain

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)
open Cert.KernelIdeal.KKeep

/-- The first result is region 2's array, which nothing later writes. -/
theorem res0 : W11 m ρ c (Proc.devRef .tc main_v50) = L2 m c :=
  calc W11 m ρ c (Proc.devRef .tc main_v50)
    _ = W10 m ρ c (Proc.devRef .tc main_v50) := keep_host5 (W10 m ρ c) main_v50 (by decide)
    _ = W9 m ρ c (Proc.devRef .tc main_v50) := keep_reg4 m ρ c main_v50 (by decide)
    _ = W8 m ρ c (Proc.devRef .tc main_v50) := keep_host4 (W8 m ρ c) main_v50 (by decide)
    _ = W7 m ρ c (Proc.devRef .tc main_v50) := keep_reg3 m ρ c main_v50 (by decide)
    _ = W6 m ρ c (Proc.devRef .tc main_v50) := keep_host3 (W6 m ρ c) main_v50 (by decide)
    _ = L2 m c := Cert.KernelIdeal.KLayer2.out m ρ c

/-- Region 0's array is still layer 0 when the last host operation reads it. -/
theorem v16_late : W10 m ρ c (Proc.devRef .tc main_v16) = L0 m c :=
  calc W10 m ρ c (Proc.devRef .tc main_v16)
    _ = W9 m ρ c (Proc.devRef .tc main_v16) := keep_reg4 m ρ c main_v16 (by decide)
    _ = W8 m ρ c (Proc.devRef .tc main_v16) := keep_host4 (W8 m ρ c) main_v16 (by decide)
    _ = W7 m ρ c (Proc.devRef .tc main_v16) := keep_reg3 m ρ c main_v16 (by decide)
    _ = W6 m ρ c (Proc.devRef .tc main_v16) := keep_host3 (W6 m ρ c) main_v16 (by decide)
    _ = W5 m ρ c (Proc.devRef .tc main_v16) := keep_reg2 m ρ c main_v16 (by decide)
    _ = W4 m ρ c (Proc.devRef .tc main_v16) := keep_host2 (W4 m ρ c) main_v16 (by decide)
    _ = W3 m ρ c (Proc.devRef .tc main_v16) := keep_reg1 m ρ c main_v16 (by decide)
    _ = W2 m ρ c (Proc.devRef .tc main_v16) := keep_host1 (W2 m ρ c) main_v16 (by decide)
    _ = L0 m c := Cert.KernelIdeal.KLayer0.out m ρ c

/-- The second result is the sum of layers 0 and 4. -/
theorem res1 : W11 m ρ c (Proc.devRef .tc main_v86) = addf (F := Ideal) (s := S200000x128) (φ := .f32) (L0 m c) (L4 m c) := by
  show StableHlo.after hostOps5 (W10 m ρ c) (Proc.devRef .tc main_v86) = _
  dsimp only [hostOps5]
  after_results
  rw [v16_late m ρ c, Cert.KernelIdeal.KLayer4.out m ρ c]

/-- Region 1's array is still layer 1 when the sum of layers 1 and 3 is taken. -/
theorem v33_late : W8 m ρ c (Proc.devRef .tc main_v33) = L1 m c :=
  calc W8 m ρ c (Proc.devRef .tc main_v33)
    _ = W7 m ρ c (Proc.devRef .tc main_v33) := keep_reg3 m ρ c main_v33 (by decide)
    _ = W6 m ρ c (Proc.devRef .tc main_v33) := keep_host3 (W6 m ρ c) main_v33 (by decide)
    _ = W5 m ρ c (Proc.devRef .tc main_v33) := keep_reg2 m ρ c main_v33 (by decide)
    _ = W4 m ρ c (Proc.devRef .tc main_v33) := keep_host2 (W4 m ρ c) main_v33 (by decide)
    _ = L1 m c := Cert.KernelIdeal.KLayer1.out m ρ c

/-- The sum of layers 1 and 3, taken right after region 3. -/
theorem v68_at : W9 m ρ c (Proc.devRef .tc main_v68) = addf (F := Ideal) (s := S100000x128) (φ := .f32) (L1 m c) (L3 m c) := by
  show StableHlo.after hostOps4 (W8 m ρ c) (Proc.devRef .tc main_v68) = _
  dsimp only [hostOps4]
  after_results
  rw [v33_late m ρ c, Cert.KernelIdeal.KLayer3.out m ρ c]

/-- The third result is that sum, which nothing later writes. -/
theorem res2 : W11 m ρ c (Proc.devRef .tc main_v68) = addf (F := Ideal) (s := S100000x128) (φ := .f32) (L1 m c) (L3 m c) :=
  calc W11 m ρ c (Proc.devRef .tc main_v68)
    _ = W10 m ρ c (Proc.devRef .tc main_v68) := keep_host5 (W10 m ρ c) main_v68 (by decide)
    _ = W9 m ρ c (Proc.devRef .tc main_v68) := keep_reg4 m ρ c main_v68 (by decide)
    _ = addf (F := Ideal) (s := S100000x128) (φ := .f32) (L1 m c) (L3 m c) := v68_at m ρ c

end Cert.KernelIdeal.KChain

end
-- ==== Proof.KFinal.lean ====
/-
  The idealized kernel's run with its three results named: every weakly fair execution terminates with the first
  result at the third layer of the arguments, the second at the sum of the first and fifth layers, the third at the
  sum of the second and fourth, and the arguments unchanged.
-/
import proofs.«180688_j74045236183058_1_alg».proof.Proof.KRun
import proofs.«180688_j74045236183058_1_alg».proof.Proof.KChain

set_option maxRecDepth 16384

noncomputable section

namespace Cert.KernelIdeal.KFinal

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v50) = Cert.KernelIdeal.KKeep.L2 m c
      ∧ r.2.mem ((c.tc : Thread nD τ).loc main_v86) = addf (F := Ideal) (s := S200000x128) (φ := .f32) (Cert.KernelIdeal.KKeep.L0 m c) (Cert.KernelIdeal.KKeep.L4 m c)
      ∧ r.2.mem ((c.tc : Thread nD τ).loc main_v68) = addf (F := Ideal) (s := S100000x128) (φ := .f32) (Cert.KernelIdeal.KKeep.L1 m c) (Cert.KernelIdeal.KKeep.L3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c =>
    ⟨(h c main_v50 (by decide)).trans (Cert.KernelIdeal.KChain.res0 m ρ c),
      (h c main_v86 (by decide)).trans (Cert.KernelIdeal.KChain.res1 m ρ c),
      (h c main_v68 (by decide)).trans (Cert.KernelIdeal.KChain.res2 m ρ c),
      (h c main_arg0 (by decide)).trans (W11_main_arg0 m ρ c),
      (h c main_arg1 (by decide)).trans (W11_main_arg1 m ρ c),
      (h c main_arg2 (by decide)).trans (W11_main_arg2 m ρ c),
      (h c main_arg3 (by decide)).trans (W11_main_arg3 m ρ c),
      (h c main_arg4 (by decide)).trans (W11_main_arg4 m ρ c),
      (h c main_arg5 (by decide)).trans (W11_main_arg5 m ρ c),
      (h c main_arg6 (by decide)).trans (W11_main_arg6 m ρ c),
      (h c main_arg7 (by decide)).trans (W11_main_arg7 m ρ c),
      (h c main_arg8 (by decide)).trans (W11_main_arg8 m ρ c),
      (h c main_arg9 (by decide)).trans (W11_main_arg9 m ρ c),
      (h c main_arg10 (by decide)).trans (W11_main_arg10 m ρ c),
      (h c main_arg11 (by decide)).trans (W11_main_arg11 m ρ c),
      (h c main_arg12 (by decide)).trans (W11_main_arg12 m ρ c),
      (h c main_arg13 (by decide)).trans (W11_main_arg13 m ρ c),
      (h c main_arg14 (by decide)).trans (W11_main_arg14 m ρ c),
      (h c main_arg15 (by decide)).trans (W11_main_arg15 m ρ c),
      (h c main_arg16 (by decide)).trans (W11_main_arg16 m ρ c),
      (h c main_arg17 (by decide)).trans (W11_main_arg17 m ρ c),
      (h c main_arg18 (by decide)).trans (W11_main_arg18 m ρ c),
      (h c main_arg19 (by decide)).trans (W11_main_arg19 m ρ c),
      (h c main_arg20 (by decide)).trans (W11_main_arg20 m ρ c),
      (h c main_arg21 (by decide)).trans (W11_main_arg21 m ρ c),
      (h c main_arg22 (by decide)).trans (W11_main_arg22 m ρ c),
      (h c main_arg23 (by decide)).trans (W11_main_arg23 m ρ c),
      (h c main_arg24 (by decide)).trans (W11_main_arg24 m ρ c),
      (h c main_arg25 (by decide)).trans (W11_main_arg25 m ρ c),
      (h c main_arg26 (by decide)).trans (W11_main_arg26 m ρ c),
      (h c main_arg27 (by decide)).trans (W11_main_arg27 m ρ c)⟩)
    (Cert.KernelIdeal.KRun.run_all m ρ)

end Cert.KernelIdeal.KFinal

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«180688_j74045236183058_1_alg».proof.Proof.LibMatmulPlain
import proofs.«180688_j74045236183058_1_alg».proof.Proof.LibDotsNT
import proofs.«180688_j74045236183058_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.RefLayer.lean ====
/-
  One layer of the reference program is one layer of the specification.

  The reference computes a layer of the graph network as: the node features times the transposed self weights, plus
  the bias spread over the rows, plus the mean message times the transposed neighbour weights; the mean message is
  the summed messages divided by the message count clamped below by 1, the count laid out as a column and spread over
  the features; the result is divided, row by row, by the square root of the row's sum of squares, clamped below by a
  floor word, again laid out as a column and spread over the features.

  Read at an entry (r, q) every one of these steps looks at row r of the node arrays only: the products are sums over
  the 128 features, the transposes swap the two coordinates of the weights, the spreadings ignore a coordinate, the
  sum of squares ranges over row r.  Composed, the entry is the specification's `Cert.Sage.layer` at (r, q).  The
  summed messages and the message count enter as arbitrary arrays: nothing is said about how they were obtained.
  The two float words (1 and the floor) are carried as words and never evaluated.

  The row count a is a parameter, and every shape condition and the dimension record of the products are
  hypotheses, so the theorem applies to any program text that has this form.
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«180688_j74045236183058_1_alg».proof.Proof.SageSpec
import proofs.«180688_j74045236183058_1_alg».proof.Proof.LibDotsNT
import proofs.«180688_j74045236183058_1_alg».proof.Proof.LibKeepdims
import proofs.«180688_j74045236183058_1_alg».proof.Proof.LibDenseLayer

noncomputable section

open scoped BigOperators

namespace Cert.RefLayer

open Idealize.ShloMosaic Idealize.ShloMosaic.ValueIdx

/-! ## The layout steps read at an entry -/

section Layout

variable {α : Type}

/-- A scalar spread over any shape reads the scalar at every entry. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [a] laid out as the column [a, 1] reads, at (r, u), the vector's entry r. -/
theorem bcast_vec_col_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- A vector [n] laid out as the row [1, n] reads, at (u, q), the vector's entry q. -/
theorem bcast_vec_row_apply {n : ℕ} (x : (⟨1, ![n]⟩ : Shape).Idx → α)
    (h : (⟨1, ![n]⟩ : Shape).BroadcastsInDim ⟨2, ![1, n]⟩ (![1] : Fin 1 → Fin (⟨2, ![1, n]⟩ : Shape).rank))
    (u : Fin 1) (q : Fin n) : broadcastInDim ⟨2, ![1, n]⟩ ![1] h x (ix2 u q) = x (ix1 q) := by
  refine broadcastInDim_apply ![1] h x (ix2 u q) (ix1 q) fun ax => ?_
  match ax with
  | ⟨0, _⟩ =>
    show q.val = if n = 1 then 0 else q.val
    split
    · have := q.isLt; omega
    · rfl

end Layout

/-! ## The arithmetic steps read at an entry, on the extended reals -/

/-- The host's quotient at an entry is the quotient of the entries. -/
theorem hostDivf_apply {s : Shape} {φ : FTy} (x y : FVec Ideal s φ) (i : s.Idx) :
    Host.divf x y i = Ideal.div (x i) (y i) := rfl

/-- The host's square root at an entry is the square root of the entry. -/
theorem hostSqrt_apply {s : Shape} {φ : FTy} (x : FVec Ideal s φ) (i : s.Idx) :
    Host.sqrt x i = Ideal.sqrt (x i) := rfl

/-- The host's product [M, K] by [K, N] at entry (r, q): the sum over k of left(r, k) * right(k, q). -/
theorem hostDot_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ .f32) (rhs : FVec Ideal ⟨2, ![K, N]⟩ .f32) (r : Fin M) (q : Fin N) :
    Host.dotGeneral (F := Ideal) d none lhs rhs (ix2 r q) = ∑ k : Fin K, lhs (ix2 r k) * rhs (ix2 k q) :=
  Cert.LibDotsNT.plain_dotGeneral_apply d hlc hrc hln hrn hlb hrb none .single lhs rhs r q

/-- The host's sum along the rows of an [m, n] array from the zero word, read at row p: the sum of that row's
    entries (zero plus the sum). -/
theorem hostRowSum_apply {m n : ℕ} (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduceAdd (F := Ideal) x (constant (F := Ideal) ⟨0, ![]⟩ .f32 0x00000000#32) h' hu (ix1 p)
      = ∑ k : Fin n, x (ix2 p k) := by
  have h : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' h, constant_apply, Ideal.ofBits_zero_f32, zero_add]
  exact Finset.sum_congr rfl fun k _ => congrArg x (Cert.LibKeepdims.lift_cols h p k)

/-! ## One layer of the reference -/

section Layer

variable {a : ℕ}

/-- The layer before its normalisation, read at (r, q): the self projection of row r plus the bias of column q plus
    the projection of row r's mean message, the mean being the summed messages over the count clamped below by 1. -/
theorem pre_apply
    (X AGG : FVec Ideal ⟨2, ![a, 128]⟩ .f32) (CNTv : FVec Ideal ⟨1, ![a]⟩ .f32)
    (WL WR : FVec Ideal ⟨2, ![128, 128]⟩ .f32) (Bv : FVec Ideal ⟨1, ![128]⟩ .f32)
    (d : DotDims ⟨2, ![a, 128]⟩ ⟨2, ![128, 128]⟩ ⟨2, ![a, 128]⟩)
    (hlc : d.lhsContracting = [1]) (hrc : d.rhsContracting = [0]) (hln : d.lhsNonContracting = [0])
    (hrn : d.rhsNonContracting = [1]) (hlb : d.lhsBatch = []) (hrb : d.rhsBatch = [])
    (hT : (⟨2, ![128, 128]⟩ : Shape).Transposes [1, 0] ⟨2, ![128, 128]⟩)
    (hb1 : (⟨1, ![128]⟩ : Shape).BroadcastsInDim ⟨2, ![1, 128]⟩ (![1] : Fin 1 → Fin (⟨2, ![1, 128]⟩ : Shape).rank))
    (hb2 : (⟨2, ![1, 128]⟩ : Shape).BroadcastsInDim ⟨2, ![a, 128]⟩ (![0, 1] : Fin 2 → Fin (⟨2, ![a, 128]⟩ : Shape).rank))
    (hs1 : (⟨0, ![]⟩ : Shape).BroadcastsInDim ⟨1, ![a]⟩ (![] : Fin 0 → Fin (⟨1, ![a]⟩ : Shape).rank))
    (hc1 : (⟨1, ![a]⟩ : Shape).BroadcastsInDim ⟨2, ![a, 1]⟩ (![0] : Fin 1 → Fin (⟨2, ![a, 1]⟩ : Shape).rank))
    (hc2 : (⟨2, ![a, 1]⟩ : Shape).BroadcastsInDim ⟨2, ![a, 128]⟩ (![0, 1] : Fin 2 → Fin (⟨2, ![a, 128]⟩ : Shape).rank))
    (r : Fin a) (q : Fin 128) :
    (addf (addf (Host.dotGeneral d none X (transpose ⟨2, ![128, 128]⟩ [1, 0] WL hT)) (broadcastInDim ⟨2, ![a, 128]⟩ ![0, 1] hb2 (broadcastInDim ⟨2, ![1, 128]⟩ ![1] hb1 Bv))) (Host.dotGeneral d none (Host.divf AGG (broadcastInDim ⟨2, ![a, 128]⟩ ![0, 1] hc2 (broadcastInDim ⟨2, ![a, 1]⟩ ![0] hc1 (maximumf CNTv (broadcastInDim ⟨1, ![a]⟩ ![] hs1 (constant (F := Ideal) ⟨0, ![]⟩ .f32 0x3F800000#32)))))) (transpose ⟨2, ![128, 128]⟩ [1, 0] WR hT))) (ix2 r q)
      = Cert.Sage.pre X AGG (Cert.Sage.col CNTv) WL (Cert.Sage.row Bv) WR r q := by
  rw [addf_apply, addf_apply, hostDot_apply d hlc hrc hln hrn hlb hrb, hostDot_apply d hlc hrc hln hrn hlb hrb,
    Cert.Dense.bcast_row_apply, bcast_vec_row_apply]
  unfold Cert.Sage.pre Cert.Sage.mean Cert.Sage.col Cert.Sage.row Cert.Sage.one
  refine congrArg₂ (· + ·) (congrArg₂ (· + ·) ?_ rfl) ?_
  · exact Finset.sum_congr rfl fun k _ => by rw [transpose_ix2_apply]
  · refine Finset.sum_congr rfl fun k _ => ?_
    rw [transpose_ix2_apply, hostDivf_apply, Cert.Dense.bcast_col_apply, bcast_vec_col_apply, maximumf_apply,
      bcast_scalar_apply, constant_apply]
    rfl

/-- The reference's term of one layer is the layer of the specification: each row of the un-normalised layer divided
    by its Euclidean length, the length clamped below by the floor word. -/
theorem layer_eq
    (X AGG : FVec Ideal ⟨2, ![a, 128]⟩ .f32) (CNTv : FVec Ideal ⟨1, ![a]⟩ .f32)
    (WL WR : FVec Ideal ⟨2, ![128, 128]⟩ .f32) (Bv : FVec Ideal ⟨1, ![128]⟩ .f32)
    (d : DotDims ⟨2, ![a, 128]⟩ ⟨2, ![128, 128]⟩ ⟨2, ![a, 128]⟩)
    (hlc : d.lhsContracting = [1]) (hrc : d.rhsContracting = [0]) (hln : d.lhsNonContracting = [0])
    (hrn : d.rhsNonContracting = [1]) (hlb : d.lhsBatch = []) (hrb : d.rhsBatch = [])
    (hT : (⟨2, ![128, 128]⟩ : Shape).Transposes [1, 0] ⟨2, ![128, 128]⟩)
    (hb1 : (⟨1, ![128]⟩ : Shape).BroadcastsInDim ⟨2, ![1, 128]⟩ (![1] : Fin 1 → Fin (⟨2, ![1, 128]⟩ : Shape).rank))
    (hb2 : (⟨2, ![1, 128]⟩ : Shape).BroadcastsInDim ⟨2, ![a, 128]⟩ (![0, 1] : Fin 2 → Fin (⟨2, ![a, 128]⟩ : Shape).rank))
    (hs1 : (⟨0, ![]⟩ : Shape).BroadcastsInDim ⟨1, ![a]⟩ (![] : Fin 0 → Fin (⟨1, ![a]⟩ : Shape).rank))
    (hc1 : (⟨1, ![a]⟩ : Shape).BroadcastsInDim ⟨2, ![a, 1]⟩ (![0] : Fin 1 → Fin (⟨2, ![a, 1]⟩ : Shape).rank))
    (hc2 : (⟨2, ![a, 1]⟩ : Shape).BroadcastsInDim ⟨2, ![a, 128]⟩ (![0, 1] : Fin 2 → Fin (⟨2, ![a, 128]⟩ : Shape).rank))
    (hred : (⟨2, ![a, 128]⟩ : Shape).ReducesTo [1] ⟨1, ![a]⟩) (hS : 0 < (⟨0, ![]⟩ : Shape).numel)
    (hs2 : (⟨0, ![]⟩ : Shape).BroadcastsInDim ⟨2, ![a, 1]⟩ (![] : Fin 0 → Fin (⟨2, ![a, 1]⟩ : Shape).rank)) :
    Host.divf (addf (addf (Host.dotGeneral d none X (transpose ⟨2, ![128, 128]⟩ [1, 0] WL hT)) (broadcastInDim ⟨2, ![a, 128]⟩ ![0, 1] hb2 (broadcastInDim ⟨2, ![1, 128]⟩ ![1] hb1 Bv))) (Host.dotGeneral d none (Host.divf AGG (broadcastInDim ⟨2, ![a, 128]⟩ ![0, 1] hc2 (broadcastInDim ⟨2, ![a, 1]⟩ ![0] hc1 (maximumf CNTv (broadcastInDim ⟨1, ![a]⟩ ![] hs1 (constant (F := Ideal) ⟨0, ![]⟩ .f32 0x3F800000#32)))))) (transpose ⟨2, ![128, 128]⟩ [1, 0] WR hT))) (broadcastInDim ⟨2, ![a, 128]⟩ ![0, 1] hc2 (maximumf (Host.sqrt (broadcastInDim ⟨2, ![a, 1]⟩ ![0] hc1 (Host.reduceAdd (mulf (addf (addf (Host.dotGeneral d none X (transpose ⟨2, ![128, 128]⟩ [1, 0] WL hT)) (broadcastInDim ⟨2, ![a, 128]⟩ ![0, 1] hb2 (broadcastInDim ⟨2, ![1, 128]⟩ ![1] hb1 Bv))) (Host.dotGeneral d none (Host.divf AGG (broadcastInDim ⟨2, ![a, 128]⟩ ![0, 1] hc2 (broadcastInDim ⟨2, ![a, 1]⟩ ![0] hc1 (maximumf CNTv (broadcastInDim ⟨1, ![a]⟩ ![] hs1 (constant (F := Ideal) ⟨0, ![]⟩ .f32 0x3F800000#32)))))) (transpose ⟨2, ![128, 128]⟩ [1, 0] WR hT))) (addf (addf (Host.dotGeneral d none X (transpose ⟨2, ![128, 128]⟩ [1, 0] WL hT)) (broadcastInDim ⟨2, ![a, 128]⟩ ![0, 1] hb2 (broadcastInDim ⟨2, ![1, 128]⟩ ![1] hb1 Bv))) (Host.dotGeneral d none (Host.divf AGG (broadcastInDim ⟨2, ![a, 128]⟩ ![0, 1] hc2 (broadcastInDim ⟨2, ![a, 1]⟩ ![0] hc1 (maximumf CNTv (broadcastInDim ⟨1, ![a]⟩ ![] hs1 (constant (F := Ideal) ⟨0, ![]⟩ .f32 0x3F800000#32)))))) (transpose ⟨2, ![128, 128]⟩ [1, 0] WR hT)))) (constant (F := Ideal) ⟨0, ![]⟩ .f32 0x00000000#32) hred hS))) (broadcastInDim ⟨2, ![a, 1]⟩ ![] hs2 (constant (F := Ideal) ⟨0, ![]⟩ .f32 0x2B8CBCCC#32))))
      = Cert.Sage.layer X AGG (Cert.Sage.col CNTv) WL (Cert.Sage.row Bv) WR := by
  funext j
  obtain ⟨r, q, rfl⟩ : ∃ (r : Fin a) (q : Fin 128), j = ix2 r q := ⟨j 0, j 1, eq_ix2 j⟩
  rw [Cert.Sage.layer_ix2, hostDivf_apply, Cert.Dense.bcast_col_apply, maximumf_apply, hostSqrt_apply,
    bcast_vec_col_apply, hostRowSum_apply, bcast_scalar_apply, constant_apply]
  simp only [mulf_apply, pre_apply X AGG CNTv WL WR Bv d hlc hrc hln hrn hlb hrb hT hb1 hb2 hs1 hc1 hc2]
  rfl

end Layer

end Cert.RefLayer

end
-- ==== Proof.RefSide.lean ====
/-
  The reference program's three results are layers of the specification.

  The reference applies one graph layer five times, once per edge type, and returns the layer of edge type 2 (the
  article nodes), the sum of the layers of edge types 0 and 4 (the entity nodes) and the sum of the layers of edge
  types 1 and 3 (the fact nodes).  For each edge type the summed messages and the message count are the
  scatter-add terms the reference writes; they are named here and left as they are.  Each result is then the
  specification's layer of the argument arrays, or the sum of two of them.
-/
import proofs.«180688_j74045236183058_1_alg».proof.Proof.RefLayer
import proofs.«180688_j74045236183058_1_alg».proof.Proof.Gen.ReferenceIdeal.Run

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo

/-! ## The summed messages and the message counts of the five edge types -/

/-- Layer 0 (article to entity): the messages summed per destination node, as the reference writes them (a scatter-add of
    the gathered source rows into zeros); kept as it is printed. -/
def agg0 (m : (ℓ : Loc nD τ sig) → Buf (Elt Ideal) ℓ) (c : Dev nD) : FVec Ideal S200000x128 .f32 :=
  Host.scatterAdd scatter_S200000x128_S400000x1_S400000x128_1_0_0_1 (broadcastInDim S200000x128 ![] bcast_S_S200000x128 (constant S_ .f32 0x00000000#32)) (broadcastInDim S400000x1 ![0] bcast_S400000_S400000x1_0 (m ((c.tc : Thread nD τ).loc main_arg4))) (Host.gather gather_S100000x128_S400000x1_S400000x128_1_0_n_n_0_1_1128 (m ((c.tc : Thread nD τ).loc main_arg0)) (broadcastInDim S400000x1 ![0] bcast_S400000_S400000x1_0 (select (cmpi .slt (m ((c.tc : Thread nD τ).loc main_arg3)) (broadcastInDim S400000 ![] bcast_S_S400000 (constantI S_ 32 0#32))) (addi (m ((c.tc : Thread nD τ).loc main_arg3)) (broadcastInDim S400000 ![] bcast_S_S400000 (constantI S_ 32 100000#32))) (m ((c.tc : Thread nD τ).loc main_arg3)))))

/-- Layer 0 (article to entity): the number of messages per destination node, as the reference writes it (a scatter-add of ones
    into zeros); kept as it is printed. -/
def cnt0 (m : (ℓ : Loc nD τ sig) → Buf (Elt Ideal) ℓ) (c : Dev nD) : FVec Ideal S200000 .f32 :=
  Host.scatterAdd scatter_S200000_S400000x1_S400000_n_0_0_1 (broadcastInDim S200000 ![] bcast_S_S200000 (constant S_ .f32 0x00000000#32)) (broadcastInDim S400000x1 ![0] bcast_S400000_S400000x1_0 (m ((c.tc : Thread nD τ).loc main_arg4))) (broadcastInDim S400000 ![] bcast_S_S400000 (constant S_ .f32 0x3F800000#32))

/-- Layer 1 (article to fact): the messages summed per destination node, as the reference writes them (a scatter-add of
    the gathered source rows into zeros); kept as it is printed. -/
def agg1 (m : (ℓ : Loc nD τ sig) → Buf (Elt Ideal) ℓ) (c : Dev nD) : FVec Ideal S100000x128 .f32 :=
  Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg6))) (Host.gather gather_S100000x128_S400000x1_S400000x128_1_0_n_n_0_1_1128 (m ((c.tc : Thread nD τ).loc main_arg0)) (broadcastInDim S400000x1 ![0] bcast_S400000_S400000x1_0 (select (cmpi .slt (m ((c.tc : Thread nD τ).loc main_arg5)) (broadcastInDim S400000 ![] bcast_S_S400000 (constantI S_ 32 0#32))) (addi (m ((c.tc : Thread nD τ).loc main_arg5)) (broadcastInDim S400000 ![] bcast_S_S400000 (constantI S_ 32 100000#32))) (m ((c.tc : Thread nD τ).loc main_arg5)))))

/-- Layer 1 (article to fact): the number of messages per destination node, as the reference writes it (a scatter-add of ones
    into zeros); kept as it is printed. -/
def cnt1 (m : (ℓ : Loc nD τ sig) → Buf (Elt Ideal) ℓ) (c : Dev nD) : FVec Ideal S100000 .f32 :=
  Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg6))) (broadcastInDim S400000 ![] bcast_S_S400000 (constant S_ .f32 0x3F800000#32))

/-- Layer 2 (entity to article): the messages summed per destination node, as the reference writes them (a scatter-add of
    the gathered source rows into zeros); kept as it is printed. -/
def agg2 (m : (ℓ : Loc nD τ sig) → Buf (Elt Ideal) ℓ) (c : Dev nD) : FVec Ideal S100000x128 .f32 :=
  Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg8))) (Host.gather gather_S200000x128_S400000x1_S400000x128_1_0_n_n_0_1_1128 (m ((c.tc : Thread nD τ).loc main_arg1)) (broadcastInDim S400000x1 ![0] bcast_S400000_S400000x1_0 (select (cmpi .slt (m ((c.tc : Thread nD τ).loc main_arg7)) (broadcastInDim S400000 ![] bcast_S_S400000 (constantI S_ 32 0#32))) (addi (m ((c.tc : Thread nD τ).loc main_arg7)) (broadcastInDim S400000 ![] bcast_S_S400000 (constantI S_ 32 200000#32))) (m ((c.tc : Thread nD τ).loc main_arg7)))))

/-- Layer 2 (entity to article): the number of messages per destination node, as the reference writes it (a scatter-add of ones
    into zeros); kept as it is printed. -/
def cnt2 (m : (ℓ : Loc nD τ sig) → Buf (Elt Ideal) ℓ) (c : Dev nD) : FVec Ideal S100000 .f32 :=
  Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg8))) (broadcastInDim S400000 ![] bcast_S_S400000 (constant S_ .f32 0x3F800000#32))

/-- Layer 3 (entity to fact): the messages summed per destination node, as the reference writes them (a scatter-add of
    the gathered source rows into zeros); kept as it is printed. -/
def agg3 (m : (ℓ : Loc nD τ sig) → Buf (Elt Ideal) ℓ) (c : Dev nD) : FVec Ideal S100000x128 .f32 :=
  Host.scatterAdd scatter_S100000x128_S400000x1_S400000x128_1_0_0_1 (broadcastInDim S100000x128 ![] bcast_S_S100000x128 (constant S_ .f32 0x00000000#32)) (broadcastInDim S400000x1 ![0] bcast_S400000_S400000x1_0 (m ((c.tc : Thread nD τ).loc main_arg10))) (Host.gather gather_S200000x128_S400000x1_S400000x128_1_0_n_n_0_1_1128 (m ((c.tc : Thread nD τ).loc main_arg1)) (broadcastInDim S400000x1 ![0] bcast_S400000_S400000x1_0 (select (cmpi .slt (m ((c.tc : Thread nD τ).loc main_arg9)) (broadcastInDim S400000 ![] bcast_S_S400000 (constantI S_ 32 0#32))) (addi (m ((c.tc : Thread nD τ).loc main_arg9)) (broadcastInDim S400000 ![] bcast_S_S400000 (constantI S_ 32 200000#32))) (m ((c.tc : Thread nD τ).loc main_arg9)))))

/-- Layer 3 (entity to fact): the number of messages per destination node, as the reference writes it (a scatter-add of ones
    into zeros); kept as it is printed. -/
def cnt3 (m : (ℓ : Loc nD τ sig) → Buf (Elt Ideal) ℓ) (c : Dev nD) : FVec Ideal S100000 .f32 :=
  Host.scatterAdd scatter_S100000_S400000x1_S400000_n_0_0_1 (broadcastInDim S100000 ![] bcast_S_S100000 (constant S_ .f32 0x00000000#32)) (broadcastInDim S400000x1 ![0] bcast_S400000_S400000x1_0 (m ((c.tc : Thread nD τ).loc main_arg10))) (broadcastInDim S400000 ![] bcast_S_S400000 (constant S_ .f32 0x3F800000#32))

/-- Layer 4 (fact to entity): the messages summed per destination node, as the reference writes them (a scatter-add of
    the gathered source rows into zeros); kept as it is printed. -/
def agg4 (m : (ℓ : Loc nD τ sig) → Buf (Elt Ideal) ℓ) (c : Dev nD) : FVec Ideal S200000x128 .f32 :=
  Host.scatterAdd scatter_S200000x128_S400000x1_S400000x128_1_0_0_1 (broadcastInDim S200000x128 ![] bcast_S_S200000x128 (constant S_ .f32 0x00000000#32)) (broadcastInDim S400000x1 ![0] bcast_S400000_S400000x1_0 (m ((c.tc : Thread nD τ).loc main_arg12))) (Host.gather gather_S100000x128_S400000x1_S400000x128_1_0_n_n_0_1_1128 (m ((c.tc : Thread nD τ).loc main_arg2)) (broadcastInDim S400000x1 ![0] bcast_S400000_S400000x1_0 (select (cmpi .slt (m ((c.tc : Thread nD τ).loc main_arg11)) (broadcastInDim S400000 ![] bcast_S_S400000 (constantI S_ 32 0#32))) (addi (m ((c.tc : Thread nD τ).loc main_arg11)) (broadcastInDim S400000 ![] bcast_S_S400000 (constantI S_ 32 100000#32))) (m ((c.tc : Thread nD τ).loc main_arg11)))))

/-- Layer 4 (fact to entity): the number of messages per destination node, as the reference writes it (a scatter-add of ones
    into zeros); kept as it is printed. -/
def cnt4 (m : (ℓ : Loc nD τ sig) → Buf (Elt Ideal) ℓ) (c : Dev nD) : FVec Ideal S200000 .f32 :=
  Host.scatterAdd scatter_S200000_S400000x1_S400000_n_0_0_1 (broadcastInDim S200000 ![] bcast_S_S200000 (constant S_ .f32 0x00000000#32)) (broadcastInDim S400000x1 ![0] bcast_S400000_S400000x1_0 (m ((c.tc : Thread nD τ).loc main_arg12))) (broadcastInDim S400000 ![] bcast_S_S400000 (constant S_ .f32 0x3F800000#32))

/-! ## The three results -/

set_option maxRecDepth 8192 in
/-- The article result is layer 2 (entity to article). -/
theorem out0_eq (m : (ℓ : Loc nD τ sig) → Buf (Elt Ideal) ℓ) (c : Dev nD) :
    res_main_v95 (F := Ideal) m c
      = Cert.Sage.layer (a := 100000) (m ((c.tc : Thread nD τ).loc main_arg0)) (agg2 m c) (Cert.Sage.col (cnt2 m c)) (m ((c.tc : Thread nD τ).loc main_arg19)) (Cert.Sage.row (m ((c.tc : Thread nD τ).loc main_arg20))) (m ((c.tc : Thread nD τ).loc main_arg21)) := by
  unfold res_main_v95
  exact Cert.RefLayer.layer_eq (a := 100000) (m ((c.tc : Thread nD τ).loc main_arg0)) (agg2 m c) (cnt2 m c) (m ((c.tc : Thread nD τ).loc main_arg19)) (m ((c.tc : Thread nD τ).loc main_arg21)) (m ((c.tc : Thread nD τ).loc main_arg20))
      dot_S100000x128_S128x128_S100000x128_1_0_0_1_n_n rfl rfl rfl rfl rfl rfl transposes_S128x128_S128x128_1_0 bcast_S128_S1x128_1 bcast_S1x128_S100000x128_0_1
      bcast_S_S100000 bcast_S100000_S100000x1_0 bcast_S100000x1_S100000x128_0_1 reducesTo_S100000x128_S100000_d1 h_S_ bcast_S_S100000x1

set_option maxRecDepth 8192 in
/-- The entity result is layer 0 (article to entity) plus layer 4 (fact to entity). -/
theorem out1_eq (m : (ℓ : Loc nD τ sig) → Buf (Elt Ideal) ℓ) (c : Dev nD) :
    res_main_v161 (F := Ideal) m c
      = addf (F := Ideal) (s := S200000x128) (φ := .f32)
          (Cert.Sage.layer (a := 200000) (m ((c.tc : Thread nD τ).loc main_arg1)) (agg0 m c) (Cert.Sage.col (cnt0 m c)) (m ((c.tc : Thread nD τ).loc main_arg13)) (Cert.Sage.row (m ((c.tc : Thread nD τ).loc main_arg14))) (m ((c.tc : Thread nD τ).loc main_arg15)))
          (Cert.Sage.layer (a := 200000) (m ((c.tc : Thread nD τ).loc main_arg1)) (agg4 m c) (Cert.Sage.col (cnt4 m c)) (m ((c.tc : Thread nD τ).loc main_arg25)) (Cert.Sage.row (m ((c.tc : Thread nD τ).loc main_arg26))) (m ((c.tc : Thread nD τ).loc main_arg27))) := by
  unfold res_main_v161
  exact congrArg₂ (addf (F := Ideal) (s := S200000x128) (φ := .f32))
    (Cert.RefLayer.layer_eq (a := 200000) (m ((c.tc : Thread nD τ).loc main_arg1)) (agg0 m c) (cnt0 m c) (m ((c.tc : Thread nD τ).loc main_arg13)) (m ((c.tc : Thread nD τ).loc main_arg15)) (m ((c.tc : Thread nD τ).loc main_arg14))
      dot_S200000x128_S128x128_S200000x128_1_0_0_1_n_n rfl rfl rfl rfl rfl rfl transposes_S128x128_S128x128_1_0 bcast_S128_S1x128_1 bcast_S1x128_S200000x128_0_1
      bcast_S_S200000 bcast_S200000_S200000x1_0 bcast_S200000x1_S200000x128_0_1 reducesTo_S200000x128_S200000_d1 h_S_ bcast_S_S200000x1)
    (Cert.RefLayer.layer_eq (a := 200000) (m ((c.tc : Thread nD τ).loc main_arg1)) (agg4 m c) (cnt4 m c) (m ((c.tc : Thread nD τ).loc main_arg25)) (m ((c.tc : Thread nD τ).loc main_arg27)) (m ((c.tc : Thread nD τ).loc main_arg26))
      dot_S200000x128_S128x128_S200000x128_1_0_0_1_n_n rfl rfl rfl rfl rfl rfl transposes_S128x128_S128x128_1_0 bcast_S128_S1x128_1 bcast_S1x128_S200000x128_0_1
      bcast_S_S200000 bcast_S200000_S200000x1_0 bcast_S200000x1_S200000x128_0_1 reducesTo_S200000x128_S200000_d1 h_S_ bcast_S_S200000x1)

set_option maxRecDepth 8192 in
/-- The fact result is layer 1 (article to fact) plus layer 3 (entity to fact). -/
theorem out2_eq (m : (ℓ : Loc nD τ sig) → Buf (Elt Ideal) ℓ) (c : Dev nD) :
    res_main_v128 (F := Ideal) m c
      = addf (F := Ideal) (s := S100000x128) (φ := .f32)
          (Cert.Sage.layer (a := 100000) (m ((c.tc : Thread nD τ).loc main_arg2)) (agg1 m c) (Cert.Sage.col (cnt1 m c)) (m ((c.tc : Thread nD τ).loc main_arg16)) (Cert.Sage.row (m ((c.tc : Thread nD τ).loc main_arg17))) (m ((c.tc : Thread nD τ).loc main_arg18)))
          (Cert.Sage.layer (a := 100000) (m ((c.tc : Thread nD τ).loc main_arg2)) (agg3 m c) (Cert.Sage.col (cnt3 m c)) (m ((c.tc : Thread nD τ).loc main_arg22)) (Cert.Sage.row (m ((c.tc : Thread nD τ).loc main_arg23))) (m ((c.tc : Thread nD τ).loc main_arg24))) := by
  unfold res_main_v128
  exact congrArg₂ (addf (F := Ideal) (s := S100000x128) (φ := .f32))
    (Cert.RefLayer.layer_eq (a := 100000) (m ((c.tc : Thread nD τ).loc main_arg2)) (agg1 m c) (cnt1 m c) (m ((c.tc : Thread nD τ).loc main_arg16)) (m ((c.tc : Thread nD τ).loc main_arg18)) (m ((c.tc : Thread nD τ).loc main_arg17))
      dot_S100000x128_S128x128_S100000x128_1_0_0_1_n_n rfl rfl rfl rfl rfl rfl transposes_S128x128_S128x128_1_0 bcast_S128_S1x128_1 bcast_S1x128_S100000x128_0_1
      bcast_S_S100000 bcast_S100000_S100000x1_0 bcast_S100000x1_S100000x128_0_1 reducesTo_S100000x128_S100000_d1 h_S_ bcast_S_S100000x1)
    (Cert.RefLayer.layer_eq (a := 100000) (m ((c.tc : Thread nD τ).loc main_arg2)) (agg3 m c) (cnt3 m c) (m ((c.tc : Thread nD τ).loc main_arg22)) (m ((c.tc : Thread nD τ).loc main_arg24)) (m ((c.tc : Thread nD τ).loc main_arg23))
      dot_S100000x128_S128x128_S100000x128_1_0_0_1_n_n rfl rfl rfl rfl rfl rfl transposes_S128x128_S128x128_1_0 bcast_S128_S1x128_1 bcast_S1x128_S100000x128_0_1
      bcast_S_S100000 bcast_S100000_S100000x1_0 bcast_S100000x1_S100000x128_0_1 reducesTo_S100000x128_S100000_d1 h_S_ bcast_S_S100000x1)

end Cert.RefSide

end
-- ==== Proof.lean ====
/-
  The claim: the three frames, the idealization's (empty) ledger, and the equality of the two idealized programs.

  Both idealized programs compute, five times, one mean-aggregating graph layer followed by a row normalisation
  (SageSpec.lean), and return the third layer, the sum of the first and fifth, and the sum of the second and fourth.
  The kernel does the gather and the scatter-add on the host and the rest of a layer in a kernel region, block of rows
  by block of rows (TileLayer.lean, KBlock0 ... KBlock4, KKeep.lean, KLayer0 ... KLayer4, KChain.lean, KFinal.lean);
  the reference does everything on the host (RefLayer.lean, RefSide.lean). On the extended reals the two spellings of a
  layer are one function: a product into a zero accumulator and a dot_general are the same sums, a sum along a row
  from zero is the same sum, the clamps, the square root and the quotients are the same functions, and the float
  words 1.0 and 1e-12 are the same words on both sides. The gather and the scatter-add are the same host operations
  of the same arguments in both programs and are never opened. No law used needs the inputs to be finite.
-/
import proofs.«180688_j74045236183058_1_alg».proof.Defs
import proofs.«180688_j74045236183058_1_alg».proof.Proof.Gen.Kernel
import proofs.«180688_j74045236183058_1_alg».proof.Proof.Gen.Kernel.Frame
import proofs.«180688_j74045236183058_1_alg».proof.Proof.Gen.KernelIdeal
import proofs.«180688_j74045236183058_1_alg».proof.Proof.Gen.KernelIdeal.Frame
import proofs.«180688_j74045236183058_1_alg».proof.Proof.Gen.ReferenceIdeal
import proofs.«180688_j74045236183058_1_alg».proof.Proof.Gen.Pre_finite_inputs
import proofs.«180688_j74045236183058_1_alg».proof.Proof.Gen.ReferenceIdeal.Run
import proofs.«180688_j74045236183058_1_alg».proof.Proof.KFinal
import proofs.«180688_j74045236183058_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel and the idealized kernel terminate, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ
/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

set_option maxHeartbeats 1600000 in
/-- From memories that agree on the arguments both idealized programs end with the same three arrays: each result is
    the same layers of the same arguments, the gather and scatter-add subterms being the same host operations. -/
theorem algebraic : Cert.algebraic_KernelIdeal_ReferenceIdeal := by
  intro m ρ m' ρ' _ hagree
  refine ⟨fun c => Cert.KernelIdeal.KKeep.L2 m c,
    fun c => addf (F := Ideal) (s := Cert.KernelIdeal.S200000x128) (φ := .f32) (Cert.KernelIdeal.KKeep.L0 m c) (Cert.KernelIdeal.KKeep.L4 m c),
    fun c => addf (F := Ideal) (s := Cert.KernelIdeal.S100000x128) (φ := .f32) (Cert.KernelIdeal.KKeep.L1 m c) (Cert.KernelIdeal.KKeep.L3 m c),
    Cert.KernelIdeal.KFinal.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9, h10, h11, h12, h13, h14, h15, h16, h17, h18, h19, h20, h21, h22, h23, h24, h25, h26, h27⟩ := hagree c
    rw [Cert.RefSide.out0_eq]
    unfold Cert.KernelIdeal.KKeep.L2 Cert.KernelIdeal.KKeep.agg2 Cert.KernelIdeal.KKeep.cnt2 Cert.RefSide.agg2 Cert.RefSide.cnt2
    rw [h0, h1, h7, h8, h19, h20, h21]
    rfl
  · obtain ⟨h0, h1, h2, h3, h4, h5, h6, h7, h8, h9, h10, h11, h12, h13, h14, h15, h16, h17, h18, h19, h20, h21, h22, h23, h24, h25, h26, h27⟩ := hagree c
    rw [Cert.RefSide.out1_eq]
    unfold Cert.KernelIdeal.KKeep.L0 Cert.KernelIdeal.KKeep.agg0 Cert.KernelIdeal.KKeep.cnt0 Cert.RefSide.agg0 Cert.RefSide.cnt0 Cert.KernelIdeal.KKeep.L4 Cert.KernelIdeal.KKeep.agg4 Cert.KernelIdeal.KKeep.cnt4 Cert.RefSide.agg4 Cert.RefSide.cnt4
    rw [h1, h0, h3, h4, h13, h14, h15, h2, h11, h12, h25, h26, h27]
    rfl
  · obtain ⟨h0, h1, h2, h3, h4, h5, h6, h7, h8, h9, h10, h11, h12, h13, h14, h15, h16, h17, h18, h19, h20, h21, h22, h23, h24, h25, h26, h27⟩ := hagree c
    rw [Cert.RefSide.out2_eq]
    unfold Cert.KernelIdeal.KKeep.L1 Cert.KernelIdeal.KKeep.agg1 Cert.KernelIdeal.KKeep.cnt1 Cert.RefSide.agg1 Cert.RefSide.cnt1 Cert.KernelIdeal.KKeep.L3 Cert.KernelIdeal.KKeep.agg3 Cert.KernelIdeal.KKeep.cnt3 Cert.RefSide.agg3 Cert.RefSide.cnt3
    rw [h2, h0, h5, h6, h16, h17, h18, h1, h9, h10, h22, h23, h24]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
